-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v70)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v70) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v89) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S64x256 : Shape := ⟨2, ![64, 256]⟩
abbrev S256 : Shape := ⟨1, ![256]⟩
abbrev S256x128 : Shape := ⟨2, ![256, 128]⟩
abbrev S128 : Shape := ⟨1, ![128]⟩
abbrev S128x128 : Shape := ⟨2, ![128, 128]⟩
abbrev S128x8 : Shape := ⟨2, ![128, 8]⟩
abbrev S8 : Shape := ⟨1, ![8]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S64x256 : S_.BroadcastsInDim S64x256 (![] : Fin 0 → Fin S64x256.rank)
  reducesTo_S64x256_S_d0_1 : S64x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x8 : S_.BroadcastsInDim S128x8 (![] : Fin 0 → Fin S128x8.rank)
  reducesTo_S128x8_S_d0_1 : S128x8.ReducesTo [0, 1] S_
  bcast_S_S8 : S_.BroadcastsInDim S8 (![] : Fin 0 → Fin S8.rank)
  reducesTo_S8_S_d0 : S8.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg12 : FVec F S128 .f32) (main_arg13 : FVec F S128x8 .f32) (main_arg14 : FVec F S8 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x8 .f32 := Host.absf main_arg13
  let main_cst_22 : FVec F S_ .f32 := constant S_ .f32 0x7F800000#32
  let main_v60 : FVec F S128x8 .f32 := broadcastInDim S128x8 ![] bcast_S_S128x8 main_cst_22
  let main_v61 : IVec S128x8 1 := cmpf .olt main_v59 main_v60
  let main_c_23 : IVec S_ 1 := constantI S_ 1 1#1
  let main_v62 : IVec S_ 1 := (fun x v => Host.reduce IntOp.andi x v reducesTo_S128x8_S_d0_1 h_S_) main_v61 main_c_23
  let main_v63 : IVec S_ 1 := andi main_v58 main_v62
  let main_v64 : FVec F S8 .f32 := Host.absf main_arg14
  let main_cst_24 : FVec F S_ .f32 := constant S_ .f32 0x7F800000#32
  let main_v65 : FVec F S8 .f32 := broadcastInDim S8 ![] bcast_S_S8 main_cst_24
  let main_v66 : IVec S8 1 := cmpf .olt main_v64 main_v65
  let main_c_25 : IVec S_ 1 := constantI S_ 1 1#1
  let main_v67 : IVec S_ 1 := (fun x v => Host.reduce IntOp.andi x v reducesTo_S8_S_d0 h_S_) main_v66 main_c_25
  fn_part4 (F := F) main_v63 main_v67

def fn_part2 {F : FTy → Type} [FloatOps F] (main_arg8 : FVec F S128x128 .f32) (main_arg9 : FVec F S128 .f32) (main_arg10 : FVec F S128x128 .f32) (main_arg11 : FVec F S128x128 .f32) (main_arg12 : FVec F S128 .f32) (main_arg13 : FVec F S128x8 .f32) (main_arg14 : FVec F S8 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg10
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128x128 .f32 := Host.absf main_arg11
  let main_cst_18 : FVec F S_ .f32 := constant S_ .f32 0x7F800000#32
  let main_v50 : FVec F S128x128 .f32 := broadcastInDim S128x128 ![] bcast_S_S128x128 main_cst_18
  fn_part3 (F := F) main_arg12 main_arg13 main_arg14 main_v48 main_v49 main_v50

def fn_part1 {F : FTy → Type} [FloatOps F] (main_arg5 : FVec F S256x128 .f32) (main_arg6 : FVec F S128 .f32) (main_arg7 : FVec F S256x128 .f32) (main_arg8 : FVec F S128x128 .f32) (main_arg9 : FVec F S128 .f32) (main_arg10 : FVec F S128x128 .f32) (main_arg11 : FVec F S128x128 .f32) (main_arg12 : FVec F S128 .f32) (main_arg13 : FVec F S128x8 .f32) (main_arg14 : FVec F S8 .f32) (main_v13 : IVec S_ 1) (main_v16 : IVec S64x256 1) : IVec S_ 1 :=
  let main_c_5 : IVec S_ 1 := constantI S_ 1 1#1
  let main_v17 : IVec S_ 1 := (fun x v => Host.reduce IntOp.andi x v reducesTo_S64x256_S_d0_1 h_S_) main_v16 main_c_5
  let main_v18 : IVec S_ 1 := andi main_v13 main_v17
  let main_v19 : FVec F S256x128 .f32 := Host.absf main_arg5
  let main_cst_6 : FVec F S_ .f32 := constant S_ .f32 0x7F800000#32
  let main_v20 : FVec F S256x128 .f32 := broadcastInDim S256x128 ![] bcast_S_S256x128 main_cst_6
  let main_v21 : IVec S256x128 1 := cmpf .olt main_v19 main_v20
  let main_c_7 : IVec S_ 1 := constantI S_ 1 1#1
  let main_v22 : IVec S_ 1 := (fun x v => Host.reduce IntOp.andi x v reducesTo_S256x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S256x128 .f32 := Host.absf main_arg7
  let main_cst_10 : FVec F S_ .f32 := constant S_ .f32 0x7F800000#32
  let main_v30 : FVec F S256x128 .f32 := broadcastInDim S256x128 ![] bcast_S_S256x128 main_cst_10
  let main_v31 : IVec S256x128 1 := cmpf .olt main_v29 main_v30
  let main_c_11 : IVec S_ 1 := constantI S_ 1 1#1
  let main_v32 : IVec S_ 1 := (fun x v => Host.reduce IntOp.andi x v reducesTo_S256x128_S_d0_1 h_S_) main_v31 main_c_11
  let main_v33 : IVec S_ 1 := andi main_v28 main_v32
  fn_part2 (F := F) main_arg8 main_arg9 main_arg10 main_arg11 main_arg12 main_arg13 main_arg14 main_v33

def fn {F : FTy → Type} [FloatOps F] (main_arg0 : FVec F S50000x64 .f32) (main_arg1 : IVec S2x800000 32) (main_arg2 : FVec F S64x256 .f32) (main_arg3 : FVec F S256 .f32) (main_arg4 : FVec F S64x256 .f32) (main_arg5 : FVec F S256x128 .f32) (main_arg6 : FVec F S128 .f32) (main_arg7 : FVec F S256x128 .f32) (main_arg8 : FVec F S128x128 .f32) (main_arg9 : FVec F S128 .f32) (main_arg10 : FVec F S128x128 .f32) (main_arg11 : FVec F S128x128 .f32) (main_arg12 : FVec F S128 .f32) (main_arg13 : FVec F S128x8 .f32) (main_arg14 : FVec F S8 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S64x256 .f32 := Host.absf main_arg2
  let main_cst_0 : FVec F S_ .f32 := constant S_ .f32 0x7F800000#32
  let main_v5 : FVec F S64x256 .f32 := broadcastInDim S64x256 ![] bcast_S_S64x256 main_cst_0
  let main_v6 : IVec S64x256 1 := cmpf .olt main_v4 main_v5
  let main_c_1 : IVec S_ 1 := constantI S_ 1 1#1
  let main_v7 : IVec S_ 1 := (fun x v => Host.reduce IntOp.andi x v reducesTo_S64x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S64x256 .f32 := Host.absf main_arg4
  let main_cst_4 : FVec F S_ .f32 := constant S_ .f32 0x7F800000#32
  let main_v15 : FVec F S64x256 .f32 := broadcastInDim S64x256 ![] bcast_S_S64x256 main_cst_4
  let main_v16 : IVec S64x256 1 := cmpf .olt main_v14 main_v15
  fn_part1 (F := F) main_arg5 main_arg6 main_arg7 main_arg8 main_arg9 main_arg10 main_arg11 main_arg12 main_arg13 main_arg14 main_v13 main_v16
-- ==== Kernel.lean ====
abbrev S50000x64 : Shape := ⟨2, ![50000, 64]⟩
abbrev S2x800000 : Shape := ⟨2, ![2, 800000]⟩
abbrev S64x256 : Shape := ⟨2, ![64, 256]⟩
abbrev S256 : Shape := ⟨1, ![256]⟩
abbrev S256x128 : Shape := ⟨2, ![256, 128]⟩
abbrev S128 : Shape := ⟨1, ![128]⟩
abbrev S128x128 : Shape := ⟨2, ![128, 128]⟩
abbrev S128x8 : Shape := ⟨2, ![128, 8]⟩
abbrev S8 : Shape := ⟨1, ![8]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x64 : Shape := ⟨2, ![800000, 64]⟩
abbrev S50000 : Shape := ⟨1, ![50000]⟩
abbrev S50000x1 : Shape := ⟨2, ![50000, 1]⟩
abbrev S1x256 : Shape := ⟨2, ![1, 256]⟩
abbrev S50000x256 : Shape := ⟨2, ![50000, 256]⟩
abbrev S2000x64 : Shape := ⟨2, ![2000, 64]⟩
abbrev S2000x256 : Shape := ⟨2, ![2000, 256]⟩
abbrev S800000x256 : Shape := ⟨2, ![800000, 256]⟩
abbrev S1x128 : Shape := ⟨2, ![1, 128]⟩
abbrev S50000x128 : Shape := ⟨2, ![50000, 128]⟩
abbrev S2000x128 : Shape := ⟨2, ![2000, 128]⟩
abbrev S800000x128 : Shape := ⟨2, ![800000, 128]⟩
abbrev S1x8 : Shape := ⟨2, ![1, 8]⟩
abbrev S50000x8 : Shape := ⟨2, ![50000, 8]⟩
abbrev S2000x8 : Shape := ⟨2, ![2000, 8]⟩

abbrev nBuf : Space → Nat
  | .hbm => 104
  | .vmem => 39
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S64x256, .f32⟩
  | .hbm, ⟨3, _⟩ => ⟨S256, .f32⟩
  | .hbm, ⟨4, _⟩ => ⟨S64x256, .f32⟩
  | .hbm, ⟨5, _⟩ => ⟨S256x128, .f32⟩
  | .hbm, ⟨6, _⟩ => ⟨S128, .f32⟩
  | .hbm, ⟨7, _⟩ => ⟨S256x128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128x128, .f32⟩
  | .hbm, ⟨12, _⟩ => ⟨S128, .f32⟩
  | .hbm, ⟨13, _⟩ => ⟨S128x8, .f32⟩
  | .hbm, ⟨14, _⟩ => ⟨S8, .f32⟩
  | .hbm, ⟨15, _⟩ => ⟨S1x800000, .i32⟩
  | .hbm, ⟨16, _⟩ => ⟨S800000, .i32⟩
  | .hbm, ⟨17, _⟩ => ⟨S1x800000, .i32⟩
  | .hbm, ⟨18, _⟩ => ⟨S800000, .i32⟩
  | .hbm, ⟨19, _⟩ => ⟨S_, .i32⟩
  | .hbm, ⟨20, _⟩ => ⟨S800000, .i32⟩
  | .hbm, ⟨21, _⟩ => ⟨S800000, .i1⟩
  | .hbm, ⟨22, _⟩ => ⟨S_, .i32⟩
  | .hbm, ⟨23, _⟩ => ⟨S800000, .i32⟩
  | .hbm, ⟨24, _⟩ => ⟨S800000, .i32⟩
  | .hbm, ⟨25, _⟩ => ⟨S800000, .i32⟩
  | .hbm, ⟨26, _⟩ => ⟨S800000x1, .i32⟩
  | .hbm, ⟨27, _⟩ => ⟨S800000x64, .f32⟩
  | .hbm, ⟨28, _⟩ => ⟨S_, .f32⟩
  | .hbm, ⟨29, _⟩ => ⟨S50000x64, .f32⟩
  | .hbm, ⟨30, _⟩ => ⟨S800000x1, .i32⟩
  | .hbm, ⟨31, _⟩ => ⟨S50000x64, .f32⟩
  | .hbm, ⟨32, _⟩ => ⟨S_, .f32⟩
  | .hbm, ⟨33, _⟩ => ⟨S800000, .f32⟩
  | .hbm, ⟨34, _⟩ => ⟨S_, .f32⟩
  | .hbm, ⟨35, _⟩ => ⟨S50000, .f32⟩
  | .hbm, ⟨36, _⟩ => ⟨S800000x1, .i32⟩
  | .hbm, ⟨37, _⟩ => ⟨S50000, .f32⟩
  | .hbm, ⟨38, _⟩ => ⟨S_, .f32⟩
  | .hbm, ⟨39, _⟩ => ⟨S50000, .f32⟩
  | .hbm, ⟨40, _⟩ => ⟨S50000, .f32⟩
  | .hbm, ⟨41, _⟩ => ⟨S50000x1, .f32⟩
  | .hbm, ⟨42, _⟩ => ⟨S50000x64, .f32⟩
  | .hbm, ⟨43, _⟩ => ⟨S50000x64, .f32⟩
  | .hbm, ⟨44, _⟩ => ⟨S1x256, .f32⟩
  | .hbm, ⟨45, _⟩ => ⟨S50000x256, .f32⟩
  | .hbm, ⟨46, _⟩ => ⟨S_, .i32⟩
  | .hbm, ⟨47, _⟩ => ⟨S800000, .i32⟩
  | .hbm, ⟨48, _⟩ => ⟨S800000, .i1⟩
  | .hbm, ⟨49, _⟩ => ⟨S_, .i32⟩
  | .hbm, ⟨50, _⟩ => ⟨S800000, .i32⟩
  | .hbm, ⟨51, _⟩ => ⟨S800000, .i32⟩
  | .hbm, ⟨52, _⟩ => ⟨S800000, .i32⟩
  | .hbm, ⟨53, _⟩ => ⟨S800000x1, .i32⟩
  | .hbm, ⟨54, _⟩ => ⟨S800000x256, .f32⟩
  | .hbm, ⟨55, _⟩ => ⟨S_, .f32⟩
  | .hbm, ⟨56, _⟩ => ⟨S50000x256, .f32⟩
  | .hbm, ⟨57, _⟩ => ⟨S800000x1, .i32⟩
  | .hbm, ⟨58, _⟩ => ⟨S50000x256, .f32⟩
  | .hbm, ⟨59, _⟩ => ⟨S_, .f32⟩
  | .hbm, ⟨60, _⟩ => ⟨S800000, .f32⟩
  | .hbm, ⟨61, _⟩ => ⟨S_, .f32⟩
  | .hbm, ⟨62, _⟩ => ⟨S50000, .f32⟩
  | .hbm, ⟨63, _⟩ => ⟨S800000x1, .i32⟩
  | .hbm, ⟨64, _⟩ => ⟨S50000, .f32⟩
  | .hbm, ⟨65, _⟩ => ⟨S_, .f32⟩
  | .hbm, ⟨66, _⟩ => ⟨S50000, .f32⟩
  | .hbm, ⟨67, _⟩ => ⟨S50000, .f32⟩
  | .hbm, ⟨68, _⟩ => ⟨S50000x1, .f32⟩
  | .hbm, ⟨69, _⟩ => ⟨S50000x256, .f32⟩
  | .hbm, ⟨70, _⟩ => ⟨S50000x256, .f32⟩
  | .hbm, ⟨71, _⟩ => ⟨S1x128, .f32⟩
  | .hbm, ⟨72, _⟩ => ⟨S50000x128, .f32⟩
  | .hbm, ⟨73, _⟩ => ⟨S_, .i32⟩
  | .hbm, ⟨74, _⟩ => ⟨S800000, .i32⟩
  | .hbm, ⟨75, _⟩ => ⟨S800000, .i1⟩
  | .hbm, ⟨76, _⟩ => ⟨S_, .i32⟩
  | .hbm, ⟨77, _⟩ => ⟨S800000, .i32⟩
  | .hbm, ⟨78, _⟩ => ⟨S800000, .i32⟩
  | .hbm, ⟨79, _⟩ => ⟨S800000, .i32⟩
  | .hbm, ⟨80, _⟩ => ⟨S800000x1, .i32⟩
  | .hbm, ⟨81, _⟩ => ⟨S800000x128, .f32⟩
  | .hbm, ⟨82, _⟩ => ⟨S_, .f32⟩
  | .hbm, ⟨83, _⟩ => ⟨S50000x128, .f32⟩
  | .hbm, ⟨84, _⟩ => ⟨S800000x1, .i32⟩
  | .hbm, ⟨85, _⟩ => ⟨S50000x128, .f32⟩
  | .hbm, ⟨86, _⟩ => ⟨S_, .f32⟩
  | .hbm, ⟨87, _⟩ => ⟨S800000, .f32⟩
  | .hbm, ⟨88, _⟩ => ⟨S_, .f32⟩
  | .hbm, ⟨89, _⟩ => ⟨S50000, .f32⟩
  | .hbm, ⟨90, _⟩ => ⟨S800000x1, .i32⟩
  | .hbm, ⟨91, _⟩ => ⟨S50000, .f32⟩
  | .hbm, ⟨92, _⟩ => ⟨S_, .f32⟩
  | .hbm, ⟨93, _⟩ => ⟨S50000, .f32⟩
  | .hbm, ⟨94, _⟩ => ⟨S50000, .f32⟩
  | .hbm, ⟨95, _⟩ => ⟨S50000x1, .f32⟩
  | .hbm, ⟨96, _⟩ => ⟨S50000x128, .f32⟩
  | .hbm, ⟨97, _⟩ => ⟨S50000x128, .f32⟩
  | .hbm, ⟨98, _⟩ => ⟨S1x128, .f32⟩
  | .hbm, ⟨99, _⟩ => ⟨S50000x128, .f32⟩
  | .hbm, ⟨100, _⟩ => ⟨S1x128, .f32⟩
  | .hbm, ⟨101, _⟩ => ⟨S50000x128, .f32⟩
  | .hbm, ⟨102, _⟩ => ⟨S1x8, .f32⟩
  | .hbm, ⟨103, _⟩ => ⟨S50000x8, .f32⟩
  | .local _ .vmem, ⟨0, _⟩ => ⟨S2000x64, .f32⟩
  | .local _ .vmem, ⟨1, _⟩ => ⟨S2000x64, .f32⟩
  | .local _ .vmem, ⟨2, _⟩ => ⟨S2000x64, .f32⟩
  | .local _ .vmem, ⟨3, _⟩ => ⟨S2000x64, .f32⟩
  | .local _ .vmem, ⟨4, _⟩ => ⟨S64x256, .f32⟩
  | .local _ .vmem, ⟨5, _⟩ => ⟨S64x256, .f32⟩
  | .local _ .vmem, ⟨6, _⟩ => ⟨S1x256, .f32⟩
  | .local _ .vmem, ⟨7, _⟩ => ⟨S2000x256, .f32⟩
  | .local _ .vmem, ⟨8, _⟩ => ⟨S2000x256, .f32⟩
  | .local _ .vmem, ⟨9, _⟩ => ⟨S2000x256, .f32⟩
  | .local _ .vmem, ⟨10, _⟩ => ⟨S2000x256, .f32⟩
  | .local _ .vmem, ⟨11, _⟩ => ⟨S2000x256, .f32⟩
  | .local _ .vmem, ⟨12, _⟩ => ⟨S2000x256, .f32⟩
  | .local _ .vmem, ⟨13, _⟩ => ⟨S256x128, .f32⟩
  | .local _ .vmem, ⟨14, _⟩ => ⟨S256x128, .f32⟩
  | .local _ .vmem, ⟨15, _⟩ => ⟨S1x128, .f32⟩
  | .local _ .vmem, ⟨16, _⟩ => ⟨S2000x128, .f32⟩
  | .local _ .vmem, ⟨17, _⟩ => ⟨S2000x128, .f32⟩
  | .local _ .vmem, ⟨18, _⟩ => ⟨S2000x128, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S128x128, .f32⟩
  | .local _ .vmem, ⟨23, _⟩ => ⟨S128x128, .f32⟩
  | .local _ .vmem, ⟨24, _⟩ => ⟨S1x128, .f32⟩
  | .local _ .vmem, ⟨25, _⟩ => ⟨S2000x128, .f32⟩
  | .local _ .vmem, ⟨26, _⟩ => ⟨S2000x128, .f32⟩
  | .local _ .vmem, ⟨27, _⟩ => ⟨S2000x128, .f32⟩
  | .local _ .vmem, ⟨28, _⟩ => ⟨S2000x128, .f32⟩
  | .local _ .vmem, ⟨29, _⟩ => ⟨S128x128, .f32⟩
  | .local _ .vmem, ⟨30, _⟩ => ⟨S1x128, .f32⟩
  | .local _ .vmem, ⟨31, _⟩ => ⟨S2000x128, .f32⟩
  | .local _ .vmem, ⟨32, _⟩ => ⟨S2000x128, .f32⟩
  | .local _ .vmem, ⟨33, _⟩ => ⟨S2000x128, .f32⟩
  | .local _ .vmem, ⟨34, _⟩ => ⟨S2000x128, .f32⟩
  | .local _ .vmem, ⟨35, _⟩ => ⟨S128x8, .f32⟩
  | .local _ .vmem, ⟨36, _⟩ => ⟨S1x8, .f32⟩
  | .local _ .vmem, ⟨37, _⟩ => ⟨S2000x8, .f32⟩
  | .local _ .vmem, ⟨38, _⟩ => ⟨S2000x8, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_c : Ref sig .tc := ⟨.hbm, 19, rfl⟩
abbrev main_v4 : Ref sig .tc := ⟨.hbm, 20, rfl⟩
abbrev main_v5 : Ref sig .tc := ⟨.hbm, 21, rfl⟩
abbrev main_c_0 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_cst : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_cst_1 : Ref sig .tc := ⟨.hbm, 32, rfl⟩
abbrev main_v14 : Ref sig .tc := ⟨.hbm, 33, rfl⟩
abbrev main_cst_2 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_cst_3 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_c_4 : Ref sig .tc := ⟨.hbm, 46, rfl⟩
abbrev main_v25 : Ref sig .tc := ⟨.hbm, 47, rfl⟩
abbrev main_v26 : Ref sig .tc := ⟨.hbm, 48, rfl⟩
abbrev main_c_5 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_cst_6 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_cst_7 : Ref sig .tc := ⟨.hbm, 59, rfl⟩
abbrev main_v35 : Ref sig .tc := ⟨.hbm, 60, rfl⟩
abbrev main_cst_8 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_cst_9 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_c_10 : Ref sig .tc := ⟨.hbm, 73, rfl⟩
abbrev main_v46 : Ref sig .tc := ⟨.hbm, 74, rfl⟩
abbrev main_v47 : Ref sig .tc := ⟨.hbm, 75, rfl⟩
abbrev main_c_11 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_cst_12 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_cst_13 : Ref sig .tc := ⟨.hbm, 86, rfl⟩
abbrev main_v56 : Ref sig .tc := ⟨.hbm, 87, rfl⟩
abbrev main_cst_14 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_cst_15 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg2_0 : Ref sig .tc := ⟨.vmem, 30, rfl⟩
abbrev cc3_stg3_0 : Ref sig .tc := ⟨.vmem, 31, rfl⟩
abbrev cc3_stg3_1 : Ref sig .tc := ⟨.vmem, 32, rfl⟩
abbrev cc4_stg0_0 : Ref sig .tc := ⟨.vmem, 33, rfl⟩
abbrev cc4_stg0_1 : Ref sig .tc := ⟨.vmem, 34, rfl⟩
abbrev cc4_stg1_0 : Ref sig .tc := ⟨.vmem, 35, rfl⟩
abbrev cc4_stg2_0 : Ref sig .tc := ⟨.vmem, 36, rfl⟩
abbrev cc4_stg3_0 : Ref sig .tc := ⟨.vmem, 37, rfl⟩
abbrev cc4_stg3_1 : Ref sig .tc := ⟨.vmem, 38, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26
abbrev cc3_sem0_0 : DmaSem sig := 27
abbrev cc3_sem0_1 : DmaSem sig := 28
abbrev cc3_sem1_0 : DmaSem sig := 29
abbrev cc3_sem2_0 : DmaSem sig := 30
abbrev cc3_sem3_0 : DmaSem sig := 31
abbrev cc3_sem3_1 : DmaSem sig := 32
abbrev cc4_sem0_0 : DmaSem sig := 33
abbrev cc4_sem0_1 : DmaSem sig := 34
abbrev cc4_sem1_0 : DmaSem sig := 35
abbrev cc4_sem2_0 : DmaSem sig := 36
abbrev cc4_sem3_0 : DmaSem sig := 37
abbrev cc4_sem3_1 : DmaSem sig := 38

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S2000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x8 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x8 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S2000x8 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x64 : S_.BroadcastsInDim S50000x64 (![] : Fin 0 → Fin S50000x64.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  shapeCasts_S256_S1x256 : S256.ShapeCasts S1x256
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  bitsLt_bf16_f32 : FTy.bits .bf16 < FTy.bits .f32
  inb_S64x256_S64x256_0_0 : ∀ a, (![0, 0] : Fin 2 → Nat) a + S64x256.size a ≤ S64x256.size a
  h_S64x256 : 0 < S64x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S2000x256_S2000x256_0_0 : ∀ a, (![0, 0] : Fin 2 → Nat) a + S2000x256.size a ≤ S2000x256.size a
  h_S2000x256 : 0 < S2000x256.numel
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  shapeCasts_S128_S1x128 : S128.ShapeCasts S1x128
  shapeCasts_S2000x256_S2000x256 : S2000x256.ShapeCasts S2000x256
  inb_S256x128_S256x128_0_0 : ∀ a, (![0, 0] : Fin 2 → Nat) a + S256x128.size a ≤ S256x128.size a
  h_S256x128 : 0 < S256x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S2000x128_S2000x128_0_0 : ∀ a, (![0, 0] : Fin 2 → Nat) a + S2000x128.size a ≤ S2000x128.size a
  h_S2000x128 : 0 < S2000x128.numel
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  shapeCasts_S2000x128_S2000x128 : S2000x128.ShapeCasts S2000x128
  inb_S128x128_S128x128_0_0 : ∀ a, (![0, 0] : Fin 2 → Nat) a + S128x128.size a ≤ S128x128.size a
  h_S128x128 : 0 < S128x128.numel
  shapeCasts_S8_S1x8 : S8.ShapeCasts S1x8
  inb_S128x8_S128x8_0_0 : ∀ a, (![0, 0] : Fin 2 → Nat) a + S128x8.size a ≤ S128x8.size a
  h_S128x8 : 0 < S128x8.numel
  inb_S1x8_S1x8_0_0 : ∀ a, (![0, 0] : Fin 2 → Nat) a + S1x8.size a ≤ S1x8.size a
  h_S1x8 : 0 < S1x8.numel
  shapeCasts_S1x8_S1x8 : S1x8.ShapeCasts S1x8
  broadcasts_S1x8_S2000x8 : S1x8.Broadcasts S2000x8
  inb_S2000x8_S2000x8_0_0 : ∀ a, (![0, 0] : Fin 2 → Nat) a + S2000x8.size a ≤ S2000x8.size a
  h_S2000x8 : 0 < S2000x8.numel
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  scatter_S50000_S800000x1_S800000_n_0_0_1_wf : ScatterDims.WF S50000 S800000x1 S800000 [] [0] [0] 1
  dot_S2000x64_S64x256_S2000x256_1_0_0_1_n_n_wf : DotDims.WF S2000x64 S64x256 S2000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S2000x256_S256x128_S2000x128_1_0_0_1_n_n_wf : DotDims.WF S2000x256 S256x128 S2000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x128_S2000x128_1_0_0_1_n_n_wf : DotDims.WF S2000x128 S128x128 S2000x128 [1] [0] [0] [1] [] []
  dot_S2000x128_S128x8_S2000x8_1_0_0_1_n_n_wf : DotDims.WF S2000x128 S128x8 S2000x8 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x64.size a ≤ S50000x64.size a
  hwx0_0 : ∀ i : grid0.Coords, EltTy.bits .f32 = 32 ∨ (Rect.block (s := S50000x64) S2000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x64.size a ≤ S50000x64.size a
  hwx0_1 : ∀ i : grid0.Coords, EltTy.bits .f32 = 32 ∨ (Rect.block (s := S50000x64) S2000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x256.size a ≤ S64x256.size a
  hwx0_2 : ∀ i : grid0.Coords, EltTy.bits .f32 = 32 ∨ (Rect.block (s := S64x256) S64x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x256.size a ≤ S64x256.size a
  hwx0_3 : ∀ i : grid0.Coords, EltTy.bits .f32 = 32 ∨ (Rect.block (s := S64x256) S64x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x256.size a ≤ S50000x256.size a
  hwx0_5 : ∀ i : grid0.Coords, EltTy.bits .f32 = 32 ∨ (Rect.block (s := S50000x256) S2000x256.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x256.size a ≤ S50000x256.size a
  hwx1_1 : ∀ i : grid1.Coords, EltTy.bits .f32 = 32 ∨ (Rect.block (s := S50000x256) S2000x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x128.size a ≤ S256x128.size a
  hwx1_2 : ∀ i : grid1.Coords, EltTy.bits .f32 = 32 ∨ (Rect.block (s := S256x128) S256x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x128.size a ≤ S256x128.size a
  hwx1_3 : ∀ i : grid1.Coords, EltTy.bits .f32 = 32 ∨ (Rect.block (s := S256x128) S256x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S50000x128.size a
  hwx1_5 : ∀ i : grid1.Coords, EltTy.bits .f32 = 32 ∨ (Rect.block (s := S50000x128) S2000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S50000x128.size a
  hwx2_1 : ∀ i : grid2.Coords, EltTy.bits .f32 = 32 ∨ (Rect.block (s := S50000x128) S2000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x128.size a ≤ S50000x128.size a
  hwx2_5 : ∀ i : grid2.Coords, EltTy.bits .f32 = 32 ∨ (Rect.block (s := S50000x128) S2000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S50000x128.size a
  hwx3_0 : ∀ i : grid3.Coords, EltTy.bits .f32 = 32 ∨ (Rect.block (s := S50000x128) S2000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2000x128.size a ≤ S50000x128.size a
  hwx3_3 : ∀ i : grid3.Coords, EltTy.bits .f32 = 32 ∨ (Rect.block (s := S50000x128) S2000x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S50000x128.size a
  hwx4_0 : ∀ i : grid4.Coords, EltTy.bits .f32 = 32 ∨ (Rect.block (s := S50000x128) S2000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x8.size a ≤ S128x8.size a
  hwx4_1 : ∀ i : grid4.Coords, EltTy.bits .f32 = 32 ∨ (Rect.block (s := S128x8) S128x8.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x8.size a ≤ S1x8.size a
  hwx4_2 : ∀ i : grid4.Coords, EltTy.bits .f32 = 32 ∨ (Rect.block (s := S1x8) S1x8.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S2000x8.size a ≤ S50000x8.size a
  hwx4_3 : ∀ i : grid4.Coords, EltTy.bits .f32 = 32 ∨ (Rect.block (s := S50000x8) S2000x8.size (cc4_transform_3 i) (hinb4_3 i)).WholeWords (EltTy.packing .f32)

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S2000x64_S64x256_S2000x256_1_0_0_1_n_n : DotDims S2000x64 S64x256 S2000x256 where
  lhsContracting := [1]
  rhsContracting := [0]
  lhsNonContracting := [0]
  rhsNonContracting := [1]
  lhsBatch := []
  rhsBatch := []
  wf := dot_S2000x64_S64x256_S2000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x8_S2000x8_1_0_0_1_n_n : DotDims S2000x128 S128x8 S2000x8 where
  lhsContracting := [1]
  rhsContracting := [0]
  lhsNonContracting := [0]
  rhsNonContracting := [1]
  lhsBatch := []
  rhsBatch := []
  wf := dot_S2000x128_S128x8_S2000x8_1_0_0_1_n_n_wf

abbrev win0_0 : Pipeline.Window sig grid0 :=
  Pipeline.Window.ofSpec (Memref.whole main_v22) S2000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S64x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v23) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S2000x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v43) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S2000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S256x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S256x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v44) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v45) S2000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v64) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v45) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg8) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg10) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v65) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v66) S2000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v66) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg11) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v67) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v68) S2000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v68) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg13) S128x8.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v69) S1x8.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v70) S2000x8.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S64x256 : Shape := ⟨2, ![64, 256]⟩
abbrev S256 : Shape := ⟨1, ![256]⟩
abbrev S256x128 : Shape := ⟨2, ![256, 128]⟩
abbrev S128 : Shape := ⟨1, ![128]⟩
abbrev S128x128 : Shape := ⟨2, ![128, 128]⟩
abbrev S128x8 : Shape := ⟨2, ![128, 8]⟩
abbrev S8 : Shape := ⟨1, ![8]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x64 : Shape := ⟨2, ![800000, 64]⟩
abbrev S50000 : Shape := ⟨1, ![50000]⟩
abbrev S50000x1 : Shape := ⟨2, ![50000, 1]⟩
abbrev S50000x256 : Shape := ⟨2, ![50000, 256]⟩
abbrev S1x256 : Shape := ⟨2, ![1, 256]⟩
abbrev S800000x256 : Shape := ⟨2, ![800000, 256]⟩
abbrev S50000x128 : Shape := ⟨2, ![50000, 128]⟩
abbrev S1x128 : Shape := ⟨2, ![1, 128]⟩
abbrev S800000x128 : Shape := ⟨2, ![800000, 128]⟩
abbrev S50000x8 : Shape := ⟨2, ![50000, 8]⟩
abbrev S1x8 : Shape := ⟨2, ![1, 8]⟩

abbrev nBuf : Space → Nat
  | .hbm => 129
  | .vmem => 0
  | .smem => 0
  | _ => 0

abbrev hbmTy0_0 (i : Nat) : BufTy := match i % 128 with
  | 0 => ⟨S50000x64, .f32⟩
  | 1 => ⟨S2x800000, .i32⟩
  | 2 => ⟨S64x256, .f32⟩
  | 3 => ⟨S256, .f32⟩
  | 4 => ⟨S64x256, .f32⟩
  | 5 => ⟨S256x128, .f32⟩
  | 6 => ⟨S128, .f32⟩
  | 7 => ⟨S256x128, .f32⟩
  | 8 => ⟨S128x128, .f32⟩
  | 9 => ⟨S128, .f32⟩
  | 10 => ⟨S128x128, .f32⟩
  | 11 => ⟨S128x128, .f32⟩
  | 12 => ⟨S128, .f32⟩
  | 13 => ⟨S128x8, .f32⟩
  | 14 => ⟨S8, .f32⟩
  | 15 => ⟨S1x800000, .i32⟩
  | 16 => ⟨S800000, .i32⟩
  | 17 => ⟨S1x800000, .i32⟩
  | 18 => ⟨S800000, .i32⟩
  | 19 => ⟨S_, .i32⟩
  | 20 => ⟨S800000, .i32⟩
  | 21 => ⟨S800000, .i1⟩
  | 22 => ⟨S_, .i32⟩
  | 23 => ⟨S800000, .i32⟩
  | 24 => ⟨S800000, .i32⟩
  | 25 => ⟨S800000, .i32⟩
  | 26 => ⟨S800000x1, .i32⟩
  | 27 => ⟨S800000x64, .f32⟩
  | 28 => ⟨S_, .f32⟩
  | 29 => ⟨S50000x64, .f32⟩
  | 30 => ⟨S800000x1, .i32⟩
  | 31 => ⟨S50000x64, .f32⟩
  | 32 => ⟨S_, .f32⟩
  | 33 => ⟨S800000, .f32⟩
  | 34 => ⟨S_, .f32⟩
  | 35 => ⟨S50000, .f32⟩
  | 36 => ⟨S800000x1, .i32⟩
  | 37 => ⟨S50000, .f32⟩
  | 38 => ⟨S_, .f32⟩
  | 39 => ⟨S50000, .f32⟩
  | 40 => ⟨S50000, .f32⟩
  | 41 => ⟨S50000x1, .f32⟩
  | 42 => ⟨S50000x64, .f32⟩
  | 43 => ⟨S50000x64, .f32⟩
  | 44 => ⟨S50000x256, .f32⟩
  | 45 => ⟨S1x256, .f32⟩
  | 46 => ⟨S50000x256, .f32⟩
  | 47 => ⟨S50000x256, .f32⟩
  | 48 => ⟨S50000x256, .f32⟩
  | 49 => ⟨S50000x256, .f32⟩
  | 50 => ⟨S_, .f32⟩
  | 51 => ⟨S50000x256, .f32⟩
  | 52 => ⟨S50000x256, .f32⟩
  | 53 => ⟨S_, .i32⟩
  | 54 => ⟨S800000, .i32⟩
  | 55 => ⟨S800000, .i1⟩
  | 56 => ⟨S_, .i32⟩
  | 57 => ⟨S800000, .i32⟩
  | 58 => ⟨S800000, .i32⟩
  | 59 => ⟨S800000, .i32⟩
  | 60 => ⟨S800000x1, .i32⟩
  | 61 => ⟨S800000x256, .f32⟩
  | 62 => ⟨S_, .f32⟩
  | 63 => ⟨S50000x256, .f32⟩
  | 64 => ⟨S800000x1, .i32⟩
  | 65 => ⟨S50000x256, .f32⟩
  | 66 => ⟨S_, .f32⟩
  | 67 => ⟨S800000, .f32⟩
  | 68 => ⟨S_, .f32⟩
  | 69 => ⟨S50000, .f32⟩
  | 70 => ⟨S800000x1, .i32⟩
  | 71 => ⟨S50000, .f32⟩
  | 72 => ⟨S_, .f32⟩
  | 73 => ⟨S50000, .f32⟩
  | 74 => ⟨S50000, .f32⟩
  | 75 => ⟨S50000x1, .f32⟩
  | 76 => ⟨S50000x256, .f32⟩
  | 77 => ⟨S50000x256, .f32⟩
  | 78 => ⟨S50000x128, .f32⟩
  | 79 => ⟨S1x128, .f32⟩
  | 80 => ⟨S50000x128, .f32⟩
  | 81 => ⟨S50000x128, .f32⟩
  | 82 => ⟨S50000x128, .f32⟩
  | 83 => ⟨S50000x128, .f32⟩
  | 84 => ⟨S_, .f32⟩
  | 85 => ⟨S50000x128, .f32⟩
  | 86 => ⟨S50000x128, .f32⟩
  | 87 => ⟨S_, .i32⟩
  | 88 => ⟨S800000, .i32⟩
  | 89 => ⟨S800000, .i1⟩
  | 90 => ⟨S_, .i32⟩
  | 91 => ⟨S800000, .i32⟩
  | 92 => ⟨S800000, .i32⟩
  | 93 => ⟨S800000, .i32⟩
  | 94 => ⟨S800000x1, .i32⟩
  | 95 => ⟨S800000x128, .f32⟩
  | 96 => ⟨S_, .f32⟩
  | 97 => ⟨S50000x128, .f32⟩
  | 98 => ⟨S800000x1, .i32⟩
  | 99 => ⟨S50000x128, .f32⟩
  | 100 => ⟨S_, .f32⟩
  | 101 => ⟨S800000, .f32⟩
  | 102 => ⟨S_, .f32⟩
  | 103 => ⟨S50000, .f32⟩
  | 104 => ⟨S800000x1, .i32⟩
  | 105 => ⟨S50000, .f32⟩
  | 106 => ⟨S_, .f32⟩
  | 107 => ⟨S50000, .f32⟩
  | 108 => ⟨S50000, .f32⟩
  | 109 => ⟨S50000x1, .f32⟩
  | 110 => ⟨S50000x128, .f32⟩
  | 111 => ⟨S50000x128, .f32⟩
  | 112 => ⟨S50000x128, .f32⟩
  | 113 => ⟨S1x128, .f32⟩
  | 114 => ⟨S50000x128, .f32⟩
  | 115 => ⟨S50000x128, .f32⟩
  | 116 => ⟨S50000x128, .f32⟩
  | 117 => ⟨S50000x128, .f32⟩
  | 118 => ⟨S_, .f32⟩
  | 119 => ⟨S50000x128, .f32⟩
  | 120 => ⟨S50000x128, .f32⟩
  | 121 => ⟨S50000x128, .f32⟩
  | 122 => ⟨S1x128, .f32⟩
  | 123 => ⟨S50000x128, .f32⟩
  | 124 => ⟨S50000x128, .f32⟩
  | 125 => ⟨S50000x8, .f32⟩
  | 126 => ⟨S1x8, .f32⟩
  | 127 => ⟨S50000x8, .f32⟩
  | _ => ⟨S50000x64, .f32⟩

abbrev hbmTy0_1 (i : Nat) : BufTy := match i % 128 with
  | 0 => ⟨S50000x8, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_c : Ref sig .tc := ⟨.hbm, 19, rfl⟩
abbrev main_v4 : Ref sig .tc := ⟨.hbm, 20, rfl⟩
abbrev main_v5 : Ref sig .tc := ⟨.hbm, 21, rfl⟩
abbrev main_c_0 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_cst : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_cst_1 : Ref sig .tc := ⟨.hbm, 32, rfl⟩
abbrev main_v14 : Ref sig .tc := ⟨.hbm, 33, rfl⟩
abbrev main_cst_2 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_cst_3 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_call0_cst : Ref sig .tc := ⟨.hbm, 50, rfl⟩
abbrev main_call0_v0 : Ref sig .tc := ⟨.hbm, 51, rfl⟩
abbrev main_v29 : Ref sig .tc := ⟨.hbm, 52, rfl⟩
abbrev main_c_4 : Ref sig .tc := ⟨.hbm, 53, rfl⟩
abbrev main_v30 : Ref sig .tc := ⟨.hbm, 54, rfl⟩
abbrev main_v31 : Ref sig .tc := ⟨.hbm, 55, rfl⟩
abbrev main_c_5 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_cst_6 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_cst_7 : Ref sig .tc := ⟨.hbm, 66, rfl⟩
abbrev main_v40 : Ref sig .tc := ⟨.hbm, 67, rfl⟩
abbrev main_cst_8 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_cst_9 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_call1_cst : Ref sig .tc := ⟨.hbm, 84, rfl⟩
abbrev main_call1_v0 : Ref sig .tc := ⟨.hbm, 85, rfl⟩
abbrev main_v55 : Ref sig .tc := ⟨.hbm, 86, rfl⟩
abbrev main_c_10 : Ref sig .tc := ⟨.hbm, 87, rfl⟩
abbrev main_v56 : Ref sig .tc := ⟨.hbm, 88, rfl⟩
abbrev main_v57 : Ref sig .tc := ⟨.hbm, 89, rfl⟩
abbrev main_c_11 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_cst_12 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_cst_13 : Ref sig .tc := ⟨.hbm, 100, rfl⟩
abbrev main_v66 : Ref sig .tc := ⟨.hbm, 101, rfl⟩
abbrev main_cst_14 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_cst_15 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_call2_cst : Ref sig .tc := ⟨.hbm, 118, rfl⟩
abbrev main_call2_v0 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x64 : S_.BroadcastsInDim S50000x64 (![] : Fin 0 → Fin S50000x64.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  bcast_S8_S1x8_1 : S8.BroadcastsInDim S1x8 (![1] : Fin 1 → Fin S1x8.rank)
  bcast_S1x8_S50000x8_0_1 : S1x8.BroadcastsInDim S50000x8 (![0, 1] : Fin 2 → Fin S50000x8.rank)
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  scatter_S50000_S800000x1_S800000_n_0_0_1_wf : ScatterDims.WF S50000 S800000x1 S800000 [] [0] [0] 1
  dot_S50000x64_S64x256_S50000x256_1_0_0_1_n_n_wf : DotDims.WF S50000x64 S64x256 S50000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S50000x256_S256x128_S50000x128_1_0_0_1_n_n_wf : DotDims.WF S50000x256 S256x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []
  dot_S50000x128_S128x8_S50000x8_1_0_0_1_n_n_wf : DotDims.WF S50000x128 S128x8 S50000x8 [1] [0] [0] [1] [] []

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x64_S64x256_S50000x256_1_0_0_1_n_n : DotDims S50000x64 S64x256 S50000x256 where
  lhsContracting := [1]
  rhsContracting := [0]
  lhsNonContracting := [0]
  rhsNonContracting := [1]
  lhsBatch := []
  rhsBatch := []
  wf := dot_S50000x64_S64x256_S50000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x8_S50000x8_1_0_0_1_n_n : DotDims S50000x128 S128x8 S50000x8 where
  lhsContracting := [1]
  rhsContracting := [0]
  lhsNonContracting := [0]
  rhsNonContracting := [1]
  lhsBatch := []
  rhsBatch := []
  wf := dot_S50000x128_S128x8_S50000x8_1_0_0_1_n_n_wf

class Facts : Prop extends Facts₀ where

variable [Facts]
-- ==== Proof.WholeRun.lean ====
/-
  The whole program's run with its result array named.

  Every weakly fair execution of the program from a memory with zero counters terminates without a fault, and in the
  final state each buffer that outlives the launches holds the last value of the chain of buffer contents that the
  stretches of host operations and the five launches produce in turn.  Read at the result buffer this names the
  result; read at the fifteen argument buffers it gives them back as launched.
-/
import proofs.«162610_j27891517620521_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result buffer ends at the last contents of the chain, the arguments as launched. -/
theorem run_out : θ_run defs (onTc (τ := τ) (main (F := F))) ⟨m, fun _ => 0, ρ⟩ (fun r => ∀ c : Dev nD,
      r.2.mem ((c.tc : Thread nD τ).loc main_v70) = W10 m ρ c (Proc.devRef .tc main_v70)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v70 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c),
       (h c _ (mem_uc main_arg9 (by decide))).trans (W10_main_arg9 m ρ c),
       (h c _ (mem_uc main_arg10 (by decide))).trans (W10_main_arg10 m ρ c),
       (h c _ (mem_uc main_arg11 (by decide))).trans (W10_main_arg11 m ρ c),
       (h c _ (mem_uc main_arg12 (by decide))).trans (W10_main_arg12 m ρ c),
       (h c _ (mem_uc main_arg13 (by decide))).trans (W10_main_arg13 m ρ c),
       (h c _ (mem_uc main_arg14 (by decide))).trans (W10_main_arg14 m ρ c)⟩)

end Cert.KernelIdeal.Whole

end
-- ==== Proof.LibMatmulPlain.lean ====
/-
  A plain matrix product read at an entry. For dimension numbers that contract the second axis of an [M, K] array with
  the first axis of a [K, N] array, with no batch axes, the product into a zero accumulator is, at entry (r, q), the sum
  over k of left(r, k) * right(k, q) on the extended reals.
-/
import Idealize.ShloMosaic.PureOps.Ideal
import Idealize.ShloMosaic.PureOps.Ideal.Laws
import Idealize.ShloMosaic.Lib.ValueIdx

noncomputable section

open scoped BigOperators

namespace Cert.LibMatmulPlain

open Idealize.ShloMosaic Idealize.ShloMosaic.ValueIdx

variable {M K N : Nat} (d : DotDims ⟨2, ![M, K]⟩ ⟨2, ![K, N]⟩ ⟨2, ![M, N]⟩)
  (hlc : d.lhsContracting = [1]) (hrc : d.rhsContracting = [0]) (hln : d.lhsNonContracting = [0])
  (hrn : d.rhsNonContracting = [1]) (hlb : d.lhsBatch = []) (hrb : d.rhsBatch = [])

include hlc in
theorem rank_contr_one : d.contr.rank = 1 := by rw [d.rank_contr, hlc]; rfl

include hlc in
theorem size_contr_zero : d.contr.size ⟨0, by rw [rank_contr_one d hlc]; exact Nat.one_pos⟩ = K := by
  have := d.size_contr 0 (by rw [hlc]; exact Nat.one_pos)
  rw [this]
  simp [hlc]

include hln hlb in
/-- The left operand is read in the row of the result entry … -/
theorem lhs_row (j : (⟨2, ![M, N]⟩ : Shape).Idx) (k : d.contr.Idx) : ((d.lhsIdx j k 0 : Fin _) : ℕ) = (j 0 : ℕ) := by
  have key : ∀ (p q : Nat) (hp : p < 2) (hq : q < 2), p = q → (j ⟨p, hp⟩).val = (j ⟨q, hq⟩).val :=
    fun p q hp hq h => by subst h; rfl
  simp [DotDims.lhsIdx, hlb, hln]
  exact key _ _ _ _ (by simp [hlb, hln])

include hrn hrb hln hlb in
/-- … and the right operand in its column. -/
theorem rhs_col (j : (⟨2, ![M, N]⟩ : Shape).Idx) (k : d.contr.Idx) : ((d.rhsIdx j k 1 : Fin _) : ℕ) = (j 1 : ℕ) := by
  have key : ∀ (p q : Nat) (hp : p < 2) (hq : q < 2), p = q → (j ⟨p, hp⟩).val = (j ⟨q, hq⟩).val :=
    fun p q hp hq h => by subst h; rfl
  simp [DotDims.rhsIdx, hrb, hrn, hlb, hln]
  exact key _ _ _ _ (by simp [hlb, hln, hrn])

include hlc hrc hln hrn hlb hrb in
/-- The product into the zero accumulator at entry (r, q): the sum over the contracted axis. -/
theorem matmul_zero_apply {φ₁ φ₂ : FTy} (prec : Option ContractPrecision) (lhs : FVec Ideal ⟨2, ![M, K]⟩ φ₁)
    (rhs : FVec Ideal ⟨2, ![K, N]⟩ φ₂) (r : Fin M) (q : Fin N) :
    FloatOps.matmul d prec lhs rhs (constant ⟨2, ![M, N]⟩ .f32 0x00000000#32) (ix2 r q)
      = ∑ k : Fin K, lhs (ix2 r k) * rhs (ix2 k q) := by
  rw [Ideal.matmul_constant_zero_apply,
    ← Equiv.sum_comp (contrEquiv1 d K (rank_contr_one d hlc) (size_contr_zero d hlc)).symm]
  refine Finset.sum_congr rfl fun k _ => ?_
  have hk := contrEquiv1_symm_val d K (rank_contr_one d hlc) (size_contr_zero d hlc) k
  congr 1
  · refine congrArg lhs (funext fun a => Fin.ext ?_)
    match a with
    | ⟨0, _⟩ => exact lhs_row d hln hlb _ _
    | ⟨1, _⟩ => exact (d.lhsIdx_val_of_single hlc _ _).trans hk
  · refine congrArg rhs (funext fun a => Fin.ext ?_)
    match a with
    | ⟨0, _⟩ => exact (d.rhsIdx_val_of_single hrc _ _).trans hk
    | ⟨1, _⟩ => exact rhs_col d hln hrn hlb hrb _ _

end Cert.LibMatmulPlain

end
-- ==== Proof.LibDotsNT.lean ====
/-
  Matrix products read at an entry, on the extended reals.

  * Right operand contracted on its LAST axis: for dimension numbers that contract the second axis of an [M, K] array
    with the second axis of an [N, K] array, with no batch axes, the product at entry (r, q) is the sum over k of
    left(r, k) * right(q, k) -- for the matrix unit's product into a zero accumulator (`nt_matmul_zero_apply`) and
    for the host's dot_general (`nt_dotGeneral_apply`).
  * The host's dot_general with the plain dimension numbers, [M, K] by [K, N]: at entry (r, q) the sum over k of
    left(r, k) * right(k, q) (`plain_dotGeneral_apply`).
-/
import Idealize.ShloMosaic.PureOps.Ideal
import Idealize.ShloMosaic.PureOps.Ideal.Laws
import Idealize.ShloMosaic.Lib.ValueIdx

noncomputable section

open scoped BigOperators

namespace Cert.LibDotsNT

open Idealize.ShloMosaic Idealize.ShloMosaic.ValueIdx

section NT

variable {M K N : Nat} (d : DotDims ⟨2, ![M, K]⟩ ⟨2, ![N, K]⟩ ⟨2, ![M, N]⟩)
  (hlc : d.lhsContracting = [1]) (hrc : d.rhsContracting = [1]) (hln : d.lhsNonContracting = [0])
  (hrn : d.rhsNonContracting = [0]) (hlb : d.lhsBatch = []) (hrb : d.rhsBatch = [])

include hlc in
theorem nt_rank_contr_one : d.contr.rank = 1 := by rw [d.rank_contr, hlc]; rfl

include hlc in
theorem nt_size_contr_zero : d.contr.size ⟨0, by rw [nt_rank_contr_one d hlc]; exact Nat.one_pos⟩ = K := by
  have := d.size_contr 0 (by rw [hlc]; exact Nat.one_pos)
  rw [this]
  simp [hlc]

include hln hlb in
/-- The left operand is read in the row of the result entry ... -/
theorem nt_lhs_row (j : (⟨2, ![M, N]⟩ : Shape).Idx) (k : d.contr.Idx) : ((d.lhsIdx j k 0 : Fin _) : ℕ) = (j 0 : ℕ) := by
  have key : ∀ (p q : Nat) (hp : p < 2) (hq : q < 2), p = q → (j ⟨p, hp⟩).val = (j ⟨q, hq⟩).val :=
    fun p q hp hq h => by subst h; rfl
  simp [DotDims.lhsIdx, hlb, hln]
  exact key _ _ _ _ (by simp [hlb, hln])

include hrn hrb hln hlb in
/-- ... and the right operand in the row numbered by the result entry's column. -/
theorem nt_rhs_row (j : (⟨2, ![M, N]⟩ : Shape).Idx) (k : d.contr.Idx) : ((d.rhsIdx j k 0 : Fin _) : ℕ) = (j 1 : ℕ) := by
  have key : ∀ (p q : Nat) (hp : p < 2) (hq : q < 2), p = q → (j ⟨p, hp⟩).val = (j ⟨q, hq⟩).val :=
    fun p q hp hq h => by subst h; rfl
  simp [DotDims.rhsIdx, hrb, hrn, hlb, hln]
  exact key _ _ _ _ (by simp [hlb, hln, hrn])

include hlc hrc hln hrn hlb hrb in
/-- The contraction's sum re-indexed by the one contracted coordinate. -/
theorem nt_sum_apply {φ₁ φ₂ : FTy} (lhs : FVec Ideal ⟨2, ![M, K]⟩ φ₁) (rhs : FVec Ideal ⟨2, ![N, K]⟩ φ₂) (r : Fin M) (q : Fin N) :
    ∑ k : d.contr.Idx, lhs (d.lhsIdx (ix2 r q) k) * rhs (d.rhsIdx (ix2 r q) k)
      = ∑ k : Fin K, lhs (ix2 r k) * rhs (ix2 q k) := by
  rw [← Equiv.sum_comp (contrEquiv1 d K (nt_rank_contr_one d hlc) (nt_size_contr_zero d hlc)).symm]
  refine Finset.sum_congr rfl fun k _ => ?_
  have hk := contrEquiv1_symm_val d K (nt_rank_contr_one d hlc) (nt_size_contr_zero d hlc) k
  congr 1
  · refine congrArg lhs (funext fun a => Fin.ext ?_)
    match a with
    | ⟨0, _⟩ => exact nt_lhs_row d hln hlb _ _
    | ⟨1, _⟩ => exact (d.lhsIdx_val_of_single hlc _ _).trans hk
  · refine congrArg rhs (funext fun a => Fin.ext ?_)
    match a with
    | ⟨0, _⟩ => exact nt_rhs_row d hln hrn hlb hrb _ _
    | ⟨1, _⟩ => exact (d.rhsIdx_val_of_single hrc _ _).trans hk

include hlc hrc hln hrn hlb hrb in
/-- The matrix unit's product into the zero accumulator at entry (r, q). -/
theorem nt_matmul_zero_apply {φ₁ φ₂ : FTy} (prec : Option ContractPrecision) (lhs : FVec Ideal ⟨2, ![M, K]⟩ φ₁)
    (rhs : FVec Ideal ⟨2, ![N, K]⟩ φ₂) (r : Fin M) (q : Fin N) :
    FloatOps.matmul d prec lhs rhs (constant ⟨2, ![M, N]⟩ .f32 0x00000000#32) (ix2 r q)
      = ∑ k : Fin K, lhs (ix2 r k) * rhs (ix2 q k) := by
  rw [Ideal.matmul_constant_zero_apply]
  exact nt_sum_apply d hlc hrc hln hrn hlb hrb lhs rhs r q

include hlc hrc hln hrn hlb hrb in
/-- The host's dot_general at entry (r, q). -/
theorem nt_dotGeneral_apply {φ₁ φ₂ : FTy} (prec : Option ContractPrecision) (sched : HostSchedule)
    (lhs : FVec Ideal ⟨2, ![M, K]⟩ φ₁) (rhs : FVec Ideal ⟨2, ![N, K]⟩ φ₂) (r : Fin M) (q : Fin N) :
    FloatOps.dotGeneral d prec sched lhs rhs (ix2 r q) = ∑ k : Fin K, lhs (ix2 r k) * rhs (ix2 q k) := by
  rw [Ideal.dotGeneral_apply]
  exact nt_sum_apply d hlc hrc hln hrn hlb hrb lhs rhs r q

end NT

section Plain

variable {M K N : Nat} (d : DotDims ⟨2, ![M, K]⟩ ⟨2, ![K, N]⟩ ⟨2, ![M, N]⟩)
  (hlc : d.lhsContracting = [1]) (hrc : d.rhsContracting = [0]) (hln : d.lhsNonContracting = [0])
  (hrn : d.rhsNonContracting = [1]) (hlb : d.lhsBatch = []) (hrb : d.rhsBatch = [])

include hlc in
theorem plain_rank_contr_one : d.contr.rank = 1 := by rw [d.rank_contr, hlc]; rfl

include hlc in
theorem plain_size_contr_zero : d.contr.size ⟨0, by rw [plain_rank_contr_one d hlc]; exact Nat.one_pos⟩ = K := by
  have := d.size_contr 0 (by rw [hlc]; exact Nat.one_pos)
  rw [this]
  simp [hlc]

include hln hlb in
theorem plain_lhs_row (j : (⟨2, ![M, N]⟩ : Shape).Idx) (k : d.contr.Idx) : ((d.lhsIdx j k 0 : Fin _) : ℕ) = (j 0 : ℕ) := by
  have key : ∀ (p q : Nat) (hp : p < 2) (hq : q < 2), p = q → (j ⟨p, hp⟩).val = (j ⟨q, hq⟩).val :=
    fun p q hp hq h => by subst h; rfl
  simp [DotDims.lhsIdx, hlb, hln]
  exact key _ _ _ _ (by simp [hlb, hln])

include hrn hrb hln hlb in
theorem plain_rhs_col (j : (⟨2, ![M, N]⟩ : Shape).Idx) (k : d.contr.Idx) : ((d.rhsIdx j k 1 : Fin _) : ℕ) = (j 1 : ℕ) := by
  have key : ∀ (p q : Nat) (hp : p < 2) (hq : q < 2), p = q → (j ⟨p, hp⟩).val = (j ⟨q, hq⟩).val :=
    fun p q hp hq h => by subst h; rfl
  simp [DotDims.rhsIdx, hrb, hrn, hlb, hln]
  exact key _ _ _ _ (by simp [hlb, hln, hrn])

include hlc hrc hln hrn hlb hrb in
/-- The host's dot_general with the plain dimension numbers at entry (r, q). -/
theorem plain_dotGeneral_apply {φ₁ φ₂ : FTy} (prec : Option ContractPrecision) (sched : HostSchedule)
    (lhs : FVec Ideal ⟨2, ![M, K]⟩ φ₁) (rhs : FVec Ideal ⟨2, ![K, N]⟩ φ₂) (r : Fin M) (q : Fin N) :
    FloatOps.dotGeneral d prec sched lhs rhs (ix2 r q) = ∑ k : Fin K, lhs (ix2 r k) * rhs (ix2 k q) := by
  rw [Ideal.dotGeneral_apply,
    ← Equiv.sum_comp (contrEquiv1 d K (plain_rank_contr_one d hlc) (plain_size_contr_zero d hlc)).symm]
  refine Finset.sum_congr rfl fun k _ => ?_
  have hk := contrEquiv1_symm_val d K (plain_rank_contr_one d hlc) (plain_size_contr_zero d hlc) k
  congr 1
  · refine congrArg lhs (funext fun a => Fin.ext ?_)
    match a with
    | ⟨0, _⟩ => exact plain_lhs_row d hln hlb _ _
    | ⟨1, _⟩ => exact (d.lhsIdx_val_of_single hlc _ _).trans hk
  · refine congrArg rhs (funext fun a => Fin.ext ?_)
    match a with
    | ⟨0, _⟩ => exact (d.rhsIdx_val_of_single hrc _ _).trans hk
    | ⟨1, _⟩ => exact plain_rhs_col d hln hrn hlb hrb _ _

end Plain

end Cert.LibDotsNT

end
-- ==== Proof.LibKeepdims.lean ====
/-
  Reading a row sum kept as a column. A sum along the rows of an `[a, b]` array is an `[a]` vector; kept as a
  column it is cast to `[a, 1]` and then spread over `[a, c]`. Read at `(p, q)` each step looks at row `p` only:
  the cast ignores the unit coordinate, the spreading ignores the column, and the sum ranges over the `b` entries
  of row `p`. The three steps are stated one by one, over indices written by their coordinates, and then composed.
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.LibKeepdims

open Idealize.ShloMosaic Idealize.ShloMosaic.ValueIdx

variable {α : Type}

/-- An `[a]` vector cast to the column `[a, 1]` reads, at `(i, u)`, the vector at `i`, whatever the unit
    coordinate `u`: both positions are the `i`-th in row-major order. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` spread over `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Putting the summed coordinate `k` back into the reduced index `p` gives the entry `(p, k)`. -/
theorem lift_cols {m n : ℕ} (h : (⟨2, ![m, n]⟩ : Shape).Reduces [1] (⟨1, ![m]⟩ : Shape)) (p : Fin m)
    (k : Fin ((⟨2, ![m, n]⟩ : Shape).size 1)) : h.lift (ix1 p) k = ix2 p (⟨k.val, k.isLt⟩ : Fin n) := by
  funext c; apply Fin.ext
  fin_cases c <;> rfl

/-- A float sum along the second axis from the zero pattern, read at row `p`, is the sum of that row's entries
    on the extended reals. -/
theorem rowSum_apply {m n : ℕ} (src : FVec Ideal ⟨2, ![m, n]⟩ .f32) (h : (⟨2, ![m, n]⟩ : Shape).Reduces [1] (⟨1, ![m]⟩ : Shape))
    (hφ : FKind.Formats .f32) (hacc : (0x00000000#32 : BitVec 32) = 0x00000000#32) (p : Fin m) :
    multiReduction .add [1] (⟨1, ![m]⟩ : Shape) src 0x00000000#32 h hφ hacc (ix1 p) = ∑ k : Fin n, src (ix2 p k) := by
  refine (Ideal.multiReduction_add_single src 0x00000000#32 h hφ hacc (ix1 p)).trans ?_
  exact Finset.sum_congr rfl fun k _ => congrArg src (lift_cols h p k)

/-- The three steps composed: the row sums of an `[a, b]` array, kept as a column and spread over `[a, c]`, read at
    `(p, q)` the sum of row `p`. -/
theorem rowSum_column_apply {a b c : ℕ} (src : FVec Ideal ⟨2, ![a, b]⟩ .f32)
    (h : (⟨2, ![a, b]⟩ : Shape).Reduces [1] (⟨1, ![a]⟩ : Shape)) (hφ : FKind.Formats .f32)
    (hacc : (0x00000000#32 : BitVec 32) = 0x00000000#32)
    (hcast : (⟨1, ![a]⟩ : Shape).ShapeCasts ⟨2, ![a, 1]⟩) (hbc : (⟨2, ![a, 1]⟩ : Shape).Broadcasts ⟨2, ![a, c]⟩)
    (p : Fin a) (q : Fin c) :
    broadcastTo ⟨2, ![a, c]⟩ (shapeCast ⟨2, ![a, 1]⟩ (multiReduction .add [1] (⟨1, ![a]⟩ : Shape) src 0x00000000#32 h hφ hacc) hcast) hbc (ix2 p q)
      = ∑ k : Fin b, src (ix2 p k) :=
  (broadcastTo_a1_ab_apply _ hbc p q).trans ((shapeCast_a_a1_apply _ hcast p 0).trans (rowSum_apply src h hφ hacc p))

/-- One row `[1, b]`, cast to its own shape and spread over `[a, b]`, reads at `(p, q)` the row's entry `q`. -/
theorem row_spread_apply {a b : ℕ} (v : (⟨2, ![1, b]⟩ : Shape).Idx → α) (hcast : (⟨2, ![1, b]⟩ : Shape).ShapeCasts ⟨2, ![1, b]⟩)
    (hbc : (⟨2, ![1, b]⟩ : Shape).Broadcasts ⟨2, ![a, b]⟩) (p : Fin a) (q : Fin b) :
    broadcastTo ⟨2, ![a, b]⟩ (shapeCast ⟨2, ![1, b]⟩ v hcast) hbc (ix2 p q) = v (ix2 (0 : Fin 1) q) :=
  (broadcastTo_1b_ab_apply _ hbc p q).trans (congrFun (shapeCast_self v hcast) _)

end Cert.LibKeepdims

end
-- ==== Proof.LibDenseLayer.lean ====
/-
  One dense layer of the network, read at an entry of its result, on the extended reals.

  For a feature array h : [a, k], a weight matrix W : [k, n], a column of row scales S : [a, 1] and a row of
  biases B : [1, n] the layer computes the product P = h W and the affine form P * S + B, the scale taken per row and
  the bias per column.  The tile of a grid point spells this with the matrix unit's product of the operands rounded
  to bfloat16 (a change of format, which does nothing to an extended real), a column spread over the columns and a
  row spread over the rows; the host spells it with a dot_general and two broadcast_in_dim.  Both spellings are the
  same function of the four arrays, index by index: `prod` and `affine` below.

  Also here: a vector laid out as a column [a] -> [a, 1], or as a row [n] -> [1, n], is the same array whether it is
  written as a reshape or as a broadcast_in_dim; and adding three arrays does not depend on the grouping.
-/
import Idealize.ShloMosaic.Lib.Pipeline.Value
import Idealize.ShloMosaic.Lib.ValueIdx
import Idealize.ShloMosaic.Lib.ValueLayout
import Idealize.ShloMosaic.PureOps.Ideal.Laws
import proofs.«162610_j27891517620521_1_alg».proof.Proof.LibMatmulPlain
import proofs.«162610_j27891517620521_1_alg».proof.Proof.LibDotsNT
import proofs.«162610_j27891517620521_1_alg».proof.Proof.LibKeepdims

noncomputable section

open scoped BigOperators

namespace Cert.Dense

open Idealize.ShloMosaic Idealize.ShloMosaic.ValueIdx

variable {a k n : ℕ}

/-- The product of an [a, k] array and a [k, n] array at entry (r, q): the sum over c of h(r, c) * W(c, q). -/
def prod (h : (⟨2, ![a, k]⟩ : Shape).Idx → EReal) (W : (⟨2, ![k, n]⟩ : Shape).Idx → EReal) :
    (⟨2, ![a, n]⟩ : Shape).Idx → EReal :=
  fun i => ∑ c : Fin k, h (ix2 (i 0) c) * W (ix2 c (i 1))

/-- The product with row r scaled by S(r, 0) and B(0, q) added in column q. -/
def affine (h : (⟨2, ![a, k]⟩ : Shape).Idx → EReal) (W : (⟨2, ![k, n]⟩ : Shape).Idx → EReal)
    (S : (⟨2, ![a, 1]⟩ : Shape).Idx → EReal) (B : (⟨2, ![1, n]⟩ : Shape).Idx → EReal) :
    (⟨2, ![a, n]⟩ : Shape).Idx → EReal :=
  fun i => prod h W i * S (ix2 (i 0) (0 : Fin 1)) + B (ix2 (0 : Fin 1) (i 1))

/-- The product with B(0, q) added in column q (no row scale). -/
def biased (h : (⟨2, ![a, k]⟩ : Shape).Idx → EReal) (W : (⟨2, ![k, n]⟩ : Shape).Idx → EReal)
    (B : (⟨2, ![1, n]⟩ : Shape).Idx → EReal) : (⟨2, ![a, n]⟩ : Shape).Idx → EReal :=
  fun i => prod h W i + B (ix2 (0 : Fin 1) (i 1))

theorem prod_ix2 (h : (⟨2, ![a, k]⟩ : Shape).Idx → EReal) (W : (⟨2, ![k, n]⟩ : Shape).Idx → EReal) (r : Fin a) (q : Fin n) :
    prod h W (ix2 r q) = ∑ c : Fin k, h (ix2 r c) * W (ix2 c q) := rfl

section Products

variable (d : DotDims ⟨2, ![a, k]⟩ ⟨2, ![k, n]⟩ ⟨2, ![a, n]⟩)
  (hlc : d.lhsContracting = [1]) (hrc : d.rhsContracting = [0]) (hln : d.lhsNonContracting = [0])
  (hrn : d.rhsNonContracting = [1]) (hlb : d.lhsBatch = []) (hrb : d.rhsBatch = [])

include hlc hrc hln hrn hlb hrb in
/-- The matrix unit's product of the two operands rounded to bfloat16, into a zero accumulator, is the product. -/
theorem matmul_eq_prod (x0 : FVec Ideal ⟨2, ![a, k]⟩ .f32) (x1 : FVec Ideal ⟨2, ![k, n]⟩ .f32)
    (hb : FTy.bf16.bits < FTy.f32.bits) :
    matmul d none (truncf .bf16 x0 hb) (truncf .bf16 x1 hb) (constant (F := Ideal) ⟨2, ![a, n]⟩ .f32 0x00000000#32)
      = prod x0 x1 := by
  funext j
  obtain ⟨r, q, rfl⟩ : ∃ (r : Fin a) (q : Fin n), j = ix2 r q := ⟨j 0, j 1, eq_ix2 j⟩
  exact Cert.LibMatmulPlain.matmul_zero_apply d hlc hrc hln hrn hlb hrb none _ _ r q

include hlc hrc hln hrn hlb hrb in
/-- The host's dot_general is the product. -/
theorem dotGeneral_eq_prod (h : FVec Ideal ⟨2, ![a, k]⟩ .f32) (W : FVec Ideal ⟨2, ![k, n]⟩ .f32) :
    Host.dotGeneral (F := Ideal) d none h W = prod h W := by
  funext j
  obtain ⟨r, q, rfl⟩ : ∃ (r : Fin a) (q : Fin n), j = ix2 r q := ⟨j 0, j 1, eq_ix2 j⟩
  exact Cert.LibDotsNT.plain_dotGeneral_apply d hlc hrc hln hrn hlb hrb none .single h W r q

end Products

/-- The tile's spelling of the scale and the bias: the column cast to its own shape and spread over the columns, the
    row cast to its own shape and spread over the rows. -/
theorem tile_affine (P : FVec Ideal ⟨2, ![a, n]⟩ .f32) (x2 : FVec Ideal ⟨2, ![a, 1]⟩ .f32) (x3 : FVec Ideal ⟨2, ![1, n]⟩ .f32)
    (hc2 : (⟨2, ![a, 1]⟩ : Shape).ShapeCasts ⟨2, ![a, 1]⟩) (hb2 : (⟨2, ![a, 1]⟩ : Shape).Broadcasts ⟨2, ![a, n]⟩)
    (hc3 : (⟨2, ![1, n]⟩ : Shape).ShapeCasts ⟨2, ![1, n]⟩) (hb3 : (⟨2, ![1, n]⟩ : Shape).Broadcasts ⟨2, ![a, n]⟩)
    (r : Fin a) (q : Fin n) :
    addf (mulf P (broadcastTo ⟨2, ![a, n]⟩ (shapeCast ⟨2, ![a, 1]⟩ x2 hc2) hb2))
        (broadcastTo ⟨2, ![a, n]⟩ (shapeCast ⟨2, ![1, n]⟩ x3 hc3) hb3) (ix2 r q)
      = P (ix2 r q) * x2 (ix2 r (0 : Fin 1)) + x3 (ix2 (0 : Fin 1) q) := by
  rw [addf_apply, mulf_apply, Cert.LibKeepdims.row_spread_apply, Cert.LibKeepdims.broadcastTo_a1_ab_apply, shapeCast_self]

/-- The tile's spelling of the bias alone. -/
theorem tile_biased (P : FVec Ideal ⟨2, ![a, n]⟩ .f32) (x3 : FVec Ideal ⟨2, ![1, n]⟩ .f32)
    (hc3 : (⟨2, ![1, n]⟩ : Shape).ShapeCasts ⟨2, ![1, n]⟩) (hb3 : (⟨2, ![1, n]⟩ : Shape).Broadcasts ⟨2, ![a, n]⟩)
    (r : Fin a) (q : Fin n) :
    addf P (broadcastTo ⟨2, ![a, n]⟩ (shapeCast ⟨2, ![1, n]⟩ x3 hc3) hb3) (ix2 r q)
      = P (ix2 r q) + x3 (ix2 (0 : Fin 1) q) := by
  rw [addf_apply, Cert.LibKeepdims.row_spread_apply]

/-- A column [a, 1] laid over [a, n] by broadcast_in_dim along both axes reads, at (r, q), the column's entry of row r. -/
theorem bcast_col_apply {α : Type} (S : (⟨2, ![a, 1]⟩ : Shape).Idx → α)
    (hS : (⟨2, ![a, 1]⟩ : Shape).BroadcastsInDim ⟨2, ![a, n]⟩ ![0, 1]) (r : Fin a) (q : Fin n) :
    broadcastInDim ⟨2, ![a, n]⟩ ![0, 1] hS S (ix2 r q) = S (ix2 r (0 : Fin 1)) := by
  refine broadcastInDim_apply ![0, 1] hS S (ix2 r q) (ix2 r (0 : Fin 1)) fun ax => ?_
  match ax with
  | ⟨0, _⟩ =>
    show r.val = if a = 1 then 0 else r.val
    split
    · have := r.isLt; omega
    · rfl
  | ⟨1, _⟩ => rfl

/-- A row [1, n] laid over [a, n] by broadcast_in_dim along both axes reads, at (r, q), the row's entry of column q. -/
theorem bcast_row_apply {α : Type} (B : (⟨2, ![1, n]⟩ : Shape).Idx → α)
    (hB : (⟨2, ![1, n]⟩ : Shape).BroadcastsInDim ⟨2, ![a, n]⟩ ![0, 1]) (r : Fin a) (q : Fin n) :
    broadcastInDim ⟨2, ![a, n]⟩ ![0, 1] hB B (ix2 r q) = B (ix2 (0 : Fin 1) q) := by
  refine broadcastInDim_apply ![0, 1] hB B (ix2 r q) (ix2 (0 : Fin 1) q) fun ax => ?_
  match ax with
  | ⟨0, _⟩ => rfl
  | ⟨1, _⟩ =>
    show q.val = if n = 1 then 0 else q.val
    split
    · have := q.isLt; omega
    · rfl

/-- The host's spelling of the affine form is `affine`. -/
theorem host_affine (P : FVec Ideal ⟨2, ![a, n]⟩ .f32) (S : FVec Ideal ⟨2, ![a, 1]⟩ .f32) (B : FVec Ideal ⟨2, ![1, n]⟩ .f32)
    (hS : (⟨2, ![a, 1]⟩ : Shape).BroadcastsInDim ⟨2, ![a, n]⟩ ![0, 1])
    (hB : (⟨2, ![1, n]⟩ : Shape).BroadcastsInDim ⟨2, ![a, n]⟩ ![0, 1]) (r : Fin a) (q : Fin n) :
    addf (mulf P (broadcastInDim ⟨2, ![a, n]⟩ ![0, 1] hS S)) (broadcastInDim ⟨2, ![a, n]⟩ ![0, 1] hB B) (ix2 r q)
      = P (ix2 r q) * S (ix2 r (0 : Fin 1)) + B (ix2 (0 : Fin 1) q) := by
  rw [addf_apply, mulf_apply, bcast_col_apply, bcast_row_apply]

/-- The host's spelling of the bias alone. -/
theorem host_biased (P : FVec Ideal ⟨2, ![a, n]⟩ .f32) (B : FVec Ideal ⟨2, ![1, n]⟩ .f32)
    (hB : (⟨2, ![1, n]⟩ : Shape).BroadcastsInDim ⟨2, ![a, n]⟩ ![0, 1]) (r : Fin a) (q : Fin n) :
    addf P (broadcastInDim ⟨2, ![a, n]⟩ ![0, 1] hB B) (ix2 r q) = P (ix2 r q) + B (ix2 (0 : Fin 1) q) := by
  rw [addf_apply, bcast_row_apply]

section HostForms

variable (d : DotDims ⟨2, ![a, k]⟩ ⟨2, ![k, n]⟩ ⟨2, ![a, n]⟩)
  (hlc : d.lhsContracting = [1]) (hrc : d.rhsContracting = [0]) (hln : d.lhsNonContracting = [0])
  (hrn : d.rhsNonContracting = [1]) (hlb : d.lhsBatch = []) (hrb : d.rhsBatch = [])

include hlc hrc hln hrn hlb hrb in
/-- The affine form as the host spells it: the dot_general times the scale column laid over the columns, plus the bias
    row laid over the rows. -/
theorem affine_eq_host (h : FVec Ideal ⟨2, ![a, k]⟩ .f32) (W : FVec Ideal ⟨2, ![k, n]⟩ .f32)
    (S : FVec Ideal ⟨2, ![a, 1]⟩ .f32) (B : FVec Ideal ⟨2, ![1, n]⟩ .f32)
    (hS : (⟨2, ![a, 1]⟩ : Shape).BroadcastsInDim ⟨2, ![a, n]⟩ ![0, 1])
    (hB : (⟨2, ![1, n]⟩ : Shape).BroadcastsInDim ⟨2, ![a, n]⟩ ![0, 1]) :
    affine h W S B
      = addf (mulf (Host.dotGeneral (F := Ideal) d none h W) (broadcastInDim ⟨2, ![a, n]⟩ ![0, 1] hS S))
          (broadcastInDim ⟨2, ![a, n]⟩ ![0, 1] hB B) := by
  funext j
  obtain ⟨r, q, rfl⟩ : ∃ (r : Fin a) (q : Fin n), j = ix2 r q := ⟨j 0, j 1, eq_ix2 j⟩
  rw [host_affine, dotGeneral_eq_prod d hlc hrc hln hrn hlb hrb]
  rfl

include hlc hrc hln hrn hlb hrb in
/-- The biased form as the host spells it. -/
theorem biased_eq_host (h : FVec Ideal ⟨2, ![a, k]⟩ .f32) (W : FVec Ideal ⟨2, ![k, n]⟩ .f32)
    (B : FVec Ideal ⟨2, ![1, n]⟩ .f32) (hB : (⟨2, ![1, n]⟩ : Shape).BroadcastsInDim ⟨2, ![a, n]⟩ ![0, 1]) :
    biased h W B
      = addf (Host.dotGeneral (F := Ideal) d none h W) (broadcastInDim ⟨2, ![a, n]⟩ ![0, 1] hB B) := by
  funext j
  obtain ⟨r, q, rfl⟩ : ∃ (r : Fin a) (q : Fin n), j = ix2 r q := ⟨j 0, j 1, eq_ix2 j⟩
  rw [host_biased, dotGeneral_eq_prod d hlc hrc hln hrn hlb hrb]
  rfl

end HostForms

/-- A vector laid out as a column: the reshape [a] -> [a, 1] and the broadcast_in_dim along axis 0 are one array. -/
theorem column_cast_eq_bcast {α : Type} (x : (⟨1, ![a]⟩ : Shape).Idx → α)
    (hc : (⟨1, ![a]⟩ : Shape).ShapeCasts ⟨2, ![a, 1]⟩) (hb : (⟨1, ![a]⟩ : Shape).BroadcastsInDim ⟨2, ![a, 1]⟩ ![0]) :
    shapeCast ⟨2, ![a, 1]⟩ x hc = broadcastInDim ⟨2, ![a, 1]⟩ ![0] hb x := by
  funext j
  obtain ⟨r, u, rfl⟩ : ∃ (r : Fin a) (u : Fin 1), j = ix2 r u := ⟨j 0, j 1, eq_ix2 j⟩
  rw [Cert.LibKeepdims.shapeCast_a_a1_apply]
  refine (broadcastInDim_apply ![0] hb x (ix2 r u) (ix1 r) fun ax => ?_).symm
  match ax with
  | ⟨0, _⟩ =>
    show r.val = if a = 1 then 0 else r.val
    split
    · have := r.isLt; omega
    · rfl

/-- A vector laid out as a row: the reshape [n] -> [1, n] and the broadcast_in_dim along axis 1 are one array. -/
theorem row_cast_eq_bcast {α : Type} (x : (⟨1, ![n]⟩ : Shape).Idx → α)
    (hc : (⟨1, ![n]⟩ : Shape).ShapeCasts ⟨2, ![1, n]⟩) (hb : (⟨1, ![n]⟩ : Shape).BroadcastsInDim ⟨2, ![1, n]⟩ ![1]) :
    shapeCast ⟨2, ![1, n]⟩ x hc = broadcastInDim ⟨2, ![1, n]⟩ ![1] hb x := by
  funext j
  obtain ⟨u, q, rfl⟩ : ∃ (u : Fin 1) (q : Fin n), j = ix2 u q := ⟨j 0, j 1, eq_ix2 j⟩
  rw [shapeCast_a_1a_apply]
  refine (broadcastInDim_apply ![1] hb x (ix2 u q) (ix1 q) fun ax => ?_).symm
  match ax with
  | ⟨0, _⟩ =>
    show q.val = if n = 1 then 0 else q.val
    split
    · have := q.isLt; omega
    · rfl

/-- Adding three arrays: the grouping does not matter (addition of extended reals is associative). -/
theorem addf_assoc {s : Shape} {φ : FTy} (x y z : FVec Ideal s φ) : addf x (addf y z) = addf (addf x y) z := by
  funext i
  rw [addf_apply, addf_apply, addf_apply, addf_apply, add_assoc]

end Cert.Dense

end
-- ==== Proof.LibDenseBranch.lean ====
/-
  One dense branch of the network, read at an entry, over literal-free extents.

  For an [a, k] array h, a [k, n] weight W and a [1, n] bias row B:
    act h W B (r, q)              = max (sum over c of h(r, c) * W(c, q) + B(0, q)) 0      (the rectified layer)
    gate h W1 B1 W2 B2 (r, q)     = act h W1 B1 (r, q) * act h W2 B2 (r, q)               (the product branch)
  and the raw product h W (Cert.Dense.prod) feeds the edge aggregation.

  Each is spelt twice in the programs: on a tile of rows by the matrix unit (operands rounded to bfloat16, which
  on the extended reals changes nothing; the bias row and the zero spread over the tile), and on the whole array
  by the host's dot_general with the bias laid over the rows and a scalar zero laid over everything.  Both
  spellings are the functions above; and an entry of the whole array's function is the same function of the
  block of rows that holds it, since an entry of a product only reads its own row of h.
-/
import Idealize.ShloMosaic.Lib.Pipeline.Value
import Idealize.ShloMosaic.Lib.ValueIdx
import Idealize.ShloMosaic.Lib.ValueLayout
import Idealize.ShloMosaic.PureOps.Ideal.Laws
import proofs.«162610_j27891517620521_1_alg».proof.Proof.LibDenseLayer

noncomputable section

open scoped BigOperators

namespace Cert.Branch

open Idealize.ShloMosaic Idealize.ShloMosaic.ValueIdx

variable {a k n N : ℕ}

/-- The rectified dense layer at an entry: the larger of (h W + B)(r, q) and zero. -/
def act (h : (⟨2, ![a, k]⟩ : Shape).Idx → EReal) (W : (⟨2, ![k, n]⟩ : Shape).Idx → EReal)
    (B : (⟨2, ![1, n]⟩ : Shape).Idx → EReal) : (⟨2, ![a, n]⟩ : Shape).Idx → EReal :=
  fun i => max (Cert.Dense.biased h W B i) (Ideal.ofBits .f32 0x00000000#32)

/-- The product branch at an entry: two rectified layers of the same h, multiplied. -/
def gate (h : (⟨2, ![a, k]⟩ : Shape).Idx → EReal) (W1 : (⟨2, ![k, n]⟩ : Shape).Idx → EReal)
    (B1 : (⟨2, ![1, n]⟩ : Shape).Idx → EReal) (W2 : (⟨2, ![k, n]⟩ : Shape).Idx → EReal)
    (B2 : (⟨2, ![1, n]⟩ : Shape).Idx → EReal) : (⟨2, ![a, n]⟩ : Shape).Idx → EReal :=
  fun i => act h W1 B1 i * act h W2 B2 i

/-! ## An entry only reads its own row -/

/-- If row (j 0) of the block xb is row (i 0) of the array X, the weights agree and the columns agree, the
    product's entry j over the block is the product's entry i over the array. -/
theorem prod_at (X : (⟨2, ![N, k]⟩ : Shape).Idx → EReal) (W : (⟨2, ![k, n]⟩ : Shape).Idx → EReal)
    (xb : (⟨2, ![a, k]⟩ : Shape).Idx → EReal) (wb : (⟨2, ![k, n]⟩ : Shape).Idx → EReal)
    (j : (⟨2, ![a, n]⟩ : Shape).Idx) (i : (⟨2, ![N, n]⟩ : Shape).Idx)
    (hx : ∀ c : Fin k, xb (ix2 (j 0) c) = X (ix2 (i 0) c)) (hw : ∀ y, wb y = W y) (hq : j 1 = i 1) :
    Cert.Dense.prod xb wb j = Cert.Dense.prod X W i := by
  show ∑ c : Fin k, xb (ix2 (j 0) c) * wb (ix2 c (j 1)) = ∑ c : Fin k, X (ix2 (i 0) c) * W (ix2 c (i 1))
  refine Finset.sum_congr rfl fun c _ => ?_
  rw [hx c, hw, hq]

/-- The same for the rectified layer. -/
theorem act_at (X : (⟨2, ![N, k]⟩ : Shape).Idx → EReal) (W : (⟨2, ![k, n]⟩ : Shape).Idx → EReal)
    (B : (⟨2, ![1, n]⟩ : Shape).Idx → EReal)
    (xb : (⟨2, ![a, k]⟩ : Shape).Idx → EReal) (wb : (⟨2, ![k, n]⟩ : Shape).Idx → EReal)
    (bb : (⟨2, ![1, n]⟩ : Shape).Idx → EReal)
    (j : (⟨2, ![a, n]⟩ : Shape).Idx) (i : (⟨2, ![N, n]⟩ : Shape).Idx)
    (hx : ∀ c : Fin k, xb (ix2 (j 0) c) = X (ix2 (i 0) c)) (hw : ∀ y, wb y = W y) (hb : ∀ y, bb y = B y)
    (hq : j 1 = i 1) :
    act xb wb bb j = act X W B i := by
  show max (Cert.Dense.prod xb wb j + bb (ix2 (0 : Fin 1) (j 1))) _
      = max (Cert.Dense.prod X W i + B (ix2 (0 : Fin 1) (i 1))) _
  rw [prod_at X W xb wb j i hx hw hq, hb, hq]

/-- The same for the product branch. -/
theorem gate_at (X : (⟨2, ![N, k]⟩ : Shape).Idx → EReal) (W1 : (⟨2, ![k, n]⟩ : Shape).Idx → EReal)
    (B1 : (⟨2, ![1, n]⟩ : Shape).Idx → EReal) (W2 : (⟨2, ![k, n]⟩ : Shape).Idx → EReal)
    (B2 : (⟨2, ![1, n]⟩ : Shape).Idx → EReal)
    (xb : (⟨2, ![a, k]⟩ : Shape).Idx → EReal) (w1 : (⟨2, ![k, n]⟩ : Shape).Idx → EReal)
    (b1 : (⟨2, ![1, n]⟩ : Shape).Idx → EReal) (w2 : (⟨2, ![k, n]⟩ : Shape).Idx → EReal)
    (b2 : (⟨2, ![1, n]⟩ : Shape).Idx → EReal)
    (j : (⟨2, ![a, n]⟩ : Shape).Idx) (i : (⟨2, ![N, n]⟩ : Shape).Idx)
    (hx : ∀ c : Fin k, xb (ix2 (j 0) c) = X (ix2 (i 0) c)) (hw1 : ∀ y, w1 y = W1 y) (hb1 : ∀ y, b1 y = B1 y)
    (hw2 : ∀ y, w2 y = W2 y) (hb2 : ∀ y, b2 y = B2 y) (hq : j 1 = i 1) :
    gate xb w1 b1 w2 b2 j = gate X W1 B1 W2 B2 i := by
  show act xb w1 b1 j * act xb w2 b2 j = act X W1 B1 i * act X W2 B2 i
  rw [act_at X W1 B1 xb w1 b1 j i hx hw1 hb1 hq, act_at X W2 B2 xb w2 b2 j i hx hw2 hb2 hq]

/-! ## The tile's spelling and the host's spelling -/

section Spellings

variable (d : DotDims ⟨2, ![a, k]⟩ ⟨2, ![k, n]⟩ ⟨2, ![a, n]⟩)
  (hlc : d.lhsContracting = [1]) (hrc : d.rhsContracting = [0]) (hln : d.lhsNonContracting = [0])
  (hrn : d.rhsNonContracting = [1]) (hlb : d.lhsBatch = []) (hrb : d.rhsBatch = [])

include hlc hrc hln hrn hlb hrb in
/-- On a tile: the matrix unit's product into zero, plus the bias row spread over the rows, against a zero
    spread over the tile, is the rectified layer. -/
theorem tile_act (x : FVec Ideal ⟨2, ![a, k]⟩ .f32) (W : FVec Ideal ⟨2, ![k, n]⟩ .f32)
    (b : FVec Ideal ⟨2, ![1, n]⟩ .f32) (hb : FTy.bf16.bits < FTy.f32.bits)
    (hc3 : (⟨2, ![1, n]⟩ : Shape).ShapeCasts ⟨2, ![1, n]⟩) (hb3 : (⟨2, ![1, n]⟩ : Shape).Broadcasts ⟨2, ![a, n]⟩) :
    maximumf (addf (matmul d none (truncf .bf16 x hb) (truncf .bf16 W hb)
          (constant (F := Ideal) ⟨2, ![a, n]⟩ .f32 0x00000000#32))
        (broadcastTo ⟨2, ![a, n]⟩ (shapeCast ⟨2, ![1, n]⟩ b hc3) hb3))
      (broadcast ⟨2, ![a, n]⟩ (Scalar.ofBits (F := Ideal) .f32 0x00000000#32))
      = act x W b := by
  funext i
  obtain ⟨r, q, rfl⟩ : ∃ (r : Fin a) (q : Fin n), i = ix2 r q := ⟨i 0, i 1, eq_ix2 i⟩
  refine congrArg (fun z : EReal => max z (Ideal.ofBits .f32 0x00000000#32)) ?_
  rw [Cert.Dense.matmul_eq_prod d hlc hrc hln hrn hlb hrb x W hb]
  exact Cert.Dense.tile_biased _ b hc3 hb3 r q

include hlc hrc hln hrn hlb hrb in
/-- On the whole array: the host's dot_general plus the bias row laid over the rows, against a scalar zero laid
    over everything, is the rectified layer. -/
theorem host_act (X : FVec Ideal ⟨2, ![a, k]⟩ .f32) (W : FVec Ideal ⟨2, ![k, n]⟩ .f32)
    (B : FVec Ideal ⟨2, ![1, n]⟩ .f32) (hB : (⟨2, ![1, n]⟩ : Shape).BroadcastsInDim ⟨2, ![a, n]⟩ ![0, 1])
    (h0 : (⟨0, ![]⟩ : Shape).BroadcastsInDim ⟨2, ![a, n]⟩ ![]) :
    maximumf (addf (Host.dotGeneral (F := Ideal) d none X W) (broadcastInDim ⟨2, ![a, n]⟩ ![0, 1] hB B))
      (broadcastInDim ⟨2, ![a, n]⟩ ![] h0 (constant (F := Ideal) ⟨0, ![]⟩ .f32 0x00000000#32))
      = act X W B := by
  funext i
  obtain ⟨r, q, rfl⟩ : ∃ (r : Fin a) (q : Fin n), i = ix2 r q := ⟨i 0, i 1, eq_ix2 i⟩
  refine congrArg (fun z : EReal => max z (Ideal.ofBits .f32 0x00000000#32)) ?_
  rw [Cert.Dense.dotGeneral_eq_prod d hlc hrc hln hrn hlb hrb X W]
  exact Cert.Dense.host_biased _ B hB r q

end Spellings

end Cert.Branch

end
-- ==== Proof.SageLayer.lean ====
/-
  One graph layer with mean aggregation, and one plain dense layer, read at an entry over literal-free extents.

  For an [a, k] array A of neighbourhood means, the [a, k] array X of the nodes' own features, two [k, n] weights
  Wl, Wr and a [1, n] bias row B:
    layer A X Wl Wr B (r, q) = max ((sum over c of A(r, c) * Wl(c, q) + sum over c of X(r, c) * Wr(c, q)) + B(0, q)) 0
  and the dense layer is Cert.Dense.biased: sum over c of X(r, c) * W(c, q) + B(0, q).

  The layer is spelt twice.  On a tile of rows: two products of the matrix unit into zero accumulators (operands
  rounded to bfloat16, which changes nothing on the extended reals), added, then the bias row spread over the rows,
  then the maximum with a zero spread over the tile.  On the whole array: the host's dot_general of the means plus the
  bias row laid over the rows, plus the dot_general of the features, then the maximum with a scalar zero laid over
  everything.  The two differ in the order of the three summands only, and addition of extended reals is
  commutative and associative whatever the summands are (infinite ones included).

  An entry of either layer reads only its own row of A and of X, so the layer of a block of rows is the block of rows
  of the layer.
-/
import Idealize.ShloMosaic.Lib.Pipeline.Value
import Idealize.ShloMosaic.Lib.ValueIdx
import Idealize.ShloMosaic.Lib.ValueLayout
import Idealize.ShloMosaic.PureOps.Ideal.Laws
import proofs.«162610_j27891517620521_1_alg».proof.Proof.LibDenseLayer
import proofs.«162610_j27891517620521_1_alg».proof.Proof.LibDenseBranch

noncomputable section

open scoped BigOperators

namespace Cert.Sage

open Idealize.ShloMosaic Idealize.ShloMosaic.ValueIdx

variable {a k n N : ℕ}

/-- The graph layer at an entry: means times Wl, plus features times Wr, plus the bias of the column, rectified. -/
def layer (A X : (⟨2, ![a, k]⟩ : Shape).Idx → EReal) (Wl Wr : (⟨2, ![k, n]⟩ : Shape).Idx → EReal)
    (B : (⟨2, ![1, n]⟩ : Shape).Idx → EReal) : (⟨2, ![a, n]⟩ : Shape).Idx → EReal :=
  fun i => max ((Cert.Dense.prod A Wl i + Cert.Dense.prod X Wr i) + B (ix2 (0 : Fin 1) (i 1)))
    (Ideal.ofBits .f32 0x00000000#32)

/-! ## An entry only reads its own row -/

/-- If row (j 0) of the blocks ab, xb is row (i 0) of the arrays Am, Xm, the weights and the bias agree and the
    columns agree, the layer's entry j over the blocks is the layer's entry i over the arrays. -/
theorem layer_at (Am Xm : (⟨2, ![N, k]⟩ : Shape).Idx → EReal) (Wl Wr : (⟨2, ![k, n]⟩ : Shape).Idx → EReal)
    (B : (⟨2, ![1, n]⟩ : Shape).Idx → EReal)
    (ab xb : (⟨2, ![a, k]⟩ : Shape).Idx → EReal) (wl wr : (⟨2, ![k, n]⟩ : Shape).Idx → EReal)
    (bb : (⟨2, ![1, n]⟩ : Shape).Idx → EReal)
    (j : (⟨2, ![a, n]⟩ : Shape).Idx) (i : (⟨2, ![N, n]⟩ : Shape).Idx)
    (ha : ∀ c : Fin k, ab (ix2 (j 0) c) = Am (ix2 (i 0) c)) (hx : ∀ c : Fin k, xb (ix2 (j 0) c) = Xm (ix2 (i 0) c))
    (hwl : ∀ y, wl y = Wl y) (hwr : ∀ y, wr y = Wr y) (hb : ∀ y, bb y = B y) (hq : j 1 = i 1) :
    layer ab xb wl wr bb j = layer Am Xm Wl Wr B i := by
  show max ((Cert.Dense.prod ab wl j + Cert.Dense.prod xb wr j) + bb (ix2 (0 : Fin 1) (j 1))) _
      = max ((Cert.Dense.prod Am Wl i + Cert.Dense.prod Xm Wr i) + B (ix2 (0 : Fin 1) (i 1))) _
  rw [Cert.Branch.prod_at Am Wl ab wl j i ha hwl hq, Cert.Branch.prod_at Xm Wr xb wr j i hx hwr hq, hb, hq]

/-- The same for the dense layer. -/
theorem biased_at (Xm : (⟨2, ![N, k]⟩ : Shape).Idx → EReal) (W : (⟨2, ![k, n]⟩ : Shape).Idx → EReal)
    (B : (⟨2, ![1, n]⟩ : Shape).Idx → EReal)
    (xb : (⟨2, ![a, k]⟩ : Shape).Idx → EReal) (wb : (⟨2, ![k, n]⟩ : Shape).Idx → EReal)
    (bb : (⟨2, ![1, n]⟩ : Shape).Idx → EReal)
    (j : (⟨2, ![a, n]⟩ : Shape).Idx) (i : (⟨2, ![N, n]⟩ : Shape).Idx)
    (hx : ∀ c : Fin k, xb (ix2 (j 0) c) = Xm (ix2 (i 0) c)) (hw : ∀ y, wb y = W y) (hb : ∀ y, bb y = B y)
    (hq : j 1 = i 1) :
    Cert.Dense.biased xb wb bb j = Cert.Dense.biased Xm W B i := by
  show Cert.Dense.prod xb wb j + bb (ix2 (0 : Fin 1) (j 1)) = Cert.Dense.prod Xm W i + B (ix2 (0 : Fin 1) (i 1))
  rw [Cert.Branch.prod_at Xm W xb wb j i hx hw hq, hb, hq]

/-! ## The tile's spelling and the host's spelling -/

section Spellings

variable (d : DotDims ⟨2, ![a, k]⟩ ⟨2, ![k, n]⟩ ⟨2, ![a, n]⟩)
  (hlc : d.lhsContracting = [1]) (hrc : d.rhsContracting = [0]) (hln : d.lhsNonContracting = [0])
  (hrn : d.rhsNonContracting = [1]) (hlb : d.lhsBatch = []) (hrb : d.rhsBatch = [])

include hlc hrc hln hrn hlb hrb in
/-- On a tile: the two products into zero, added; plus the bias row spread over the rows; against a zero spread over
    the tile. (The means' block passes through a cast to its own shape first, which is the identity.) -/
theorem tile_layer (xa xx : FVec Ideal ⟨2, ![a, k]⟩ .f32) (wl wr : FVec Ideal ⟨2, ![k, n]⟩ .f32)
    (b : FVec Ideal ⟨2, ![1, n]⟩ .f32) (hb : FTy.bf16.bits < FTy.f32.bits)
    (hca : (⟨2, ![a, k]⟩ : Shape).ShapeCasts ⟨2, ![a, k]⟩)
    (hc3 : (⟨2, ![1, n]⟩ : Shape).ShapeCasts ⟨2, ![1, n]⟩) (hb3 : (⟨2, ![1, n]⟩ : Shape).Broadcasts ⟨2, ![a, n]⟩) :
    maximumf (addf (addf (matmul d none (truncf .bf16 (shapeCast ⟨2, ![a, k]⟩ xa hca) hb) (truncf .bf16 wl hb)
            (constant (F := Ideal) ⟨2, ![a, n]⟩ .f32 0x00000000#32))
          (matmul d none (truncf .bf16 xx hb) (truncf .bf16 wr hb)
            (constant (F := Ideal) ⟨2, ![a, n]⟩ .f32 0x00000000#32)))
        (broadcastTo ⟨2, ![a, n]⟩ (shapeCast ⟨2, ![1, n]⟩ b hc3) hb3))
      (broadcast ⟨2, ![a, n]⟩ (Scalar.ofBits (F := Ideal) .f32 0x00000000#32))
      = layer xa xx wl wr b := by
  funext i
  obtain ⟨r, q, rfl⟩ : ∃ (r : Fin a) (q : Fin n), i = ix2 r q := ⟨i 0, i 1, eq_ix2 i⟩
  refine congrArg (fun z : EReal => max z (Ideal.ofBits .f32 0x00000000#32)) ?_
  rw [shapeCast_self, Cert.Dense.matmul_eq_prod d hlc hrc hln hrn hlb hrb xa wl hb,
    Cert.Dense.matmul_eq_prod d hlc hrc hln hrn hlb hrb xx wr hb]
  exact Cert.Dense.tile_biased _ b hc3 hb3 r q

include hlc hrc hln hrn hlb hrb in
/-- The same tile spelling when the features' block also passes through a cast to its own shape. -/
theorem tile_layer_casts (xa xx : FVec Ideal ⟨2, ![a, k]⟩ .f32) (wl wr : FVec Ideal ⟨2, ![k, n]⟩ .f32)
    (b : FVec Ideal ⟨2, ![1, n]⟩ .f32) (hb : FTy.bf16.bits < FTy.f32.bits)
    (hca hcx : (⟨2, ![a, k]⟩ : Shape).ShapeCasts ⟨2, ![a, k]⟩)
    (hc3 : (⟨2, ![1, n]⟩ : Shape).ShapeCasts ⟨2, ![1, n]⟩) (hb3 : (⟨2, ![1, n]⟩ : Shape).Broadcasts ⟨2, ![a, n]⟩) :
    maximumf (addf (addf (matmul d none (truncf .bf16 (shapeCast ⟨2, ![a, k]⟩ xa hca) hb) (truncf .bf16 wl hb)
            (constant (F := Ideal) ⟨2, ![a, n]⟩ .f32 0x00000000#32))
          (matmul d none (truncf .bf16 (shapeCast ⟨2, ![a, k]⟩ xx hcx) hb) (truncf .bf16 wr hb)
            (constant (F := Ideal) ⟨2, ![a, n]⟩ .f32 0x00000000#32)))
        (broadcastTo ⟨2, ![a, n]⟩ (shapeCast ⟨2, ![1, n]⟩ b hc3) hb3))
      (broadcast ⟨2, ![a, n]⟩ (Scalar.ofBits (F := Ideal) .f32 0x00000000#32))
      = layer xa xx wl wr b := by
  rw [shapeCast_self xx hcx]
  exact tile_layer d hlc hrc hln hrn hlb hrb xa xx wl wr b hb hca hc3 hb3

include hlc hrc hln hrn hlb hrb in
/-- On the whole array: the means' dot_general plus the bias row laid over the rows, plus the features' dot_general,
    against a scalar zero laid over everything: the same three summands in another order. -/
theorem host_layer (A X : FVec Ideal ⟨2, ![a, k]⟩ .f32) (Wl Wr : FVec Ideal ⟨2, ![k, n]⟩ .f32)
    (B : FVec Ideal ⟨2, ![1, n]⟩ .f32) (hB : (⟨2, ![1, n]⟩ : Shape).BroadcastsInDim ⟨2, ![a, n]⟩ ![0, 1])
    (h0 : (⟨0, ![]⟩ : Shape).BroadcastsInDim ⟨2, ![a, n]⟩ ![]) :
    maximumf (addf (addf (Host.dotGeneral (F := Ideal) d none A Wl) (broadcastInDim ⟨2, ![a, n]⟩ ![0, 1] hB B))
        (Host.dotGeneral (F := Ideal) d none X Wr))
      (broadcastInDim ⟨2, ![a, n]⟩ ![] h0 (constant (F := Ideal) ⟨0, ![]⟩ .f32 0x00000000#32))
      = layer A X Wl Wr B := by
  funext i
  obtain ⟨r, q, rfl⟩ : ∃ (r : Fin a) (q : Fin n), i = ix2 r q := ⟨i 0, i 1, eq_ix2 i⟩
  refine congrArg (fun z : EReal => max z (Ideal.ofBits .f32 0x00000000#32)) ?_
  rw [addf_apply, Cert.Dense.host_biased _ B hB r q, Cert.Dense.dotGeneral_eq_prod d hlc hrc hln hrn hlb hrb A Wl,
    Cert.Dense.dotGeneral_eq_prod d hlc hrc hln hrn hlb hrb X Wr]
  exact add_right_comm _ _ _

include hlc hrc hln hrn hlb hrb in
/-- The dense layer on a tile: the product into zero plus the bias row spread over the rows. (The block passes
    through a cast to its own shape first.) -/
theorem tile_dense (x : FVec Ideal ⟨2, ![a, k]⟩ .f32) (W : FVec Ideal ⟨2, ![k, n]⟩ .f32)
    (b : FVec Ideal ⟨2, ![1, n]⟩ .f32) (hb : FTy.bf16.bits < FTy.f32.bits)
    (hca : (⟨2, ![a, k]⟩ : Shape).ShapeCasts ⟨2, ![a, k]⟩)
    (hc3 : (⟨2, ![1, n]⟩ : Shape).ShapeCasts ⟨2, ![1, n]⟩) (hb3 : (⟨2, ![1, n]⟩ : Shape).Broadcasts ⟨2, ![a, n]⟩) :
    addf (matmul d none (truncf .bf16 (shapeCast ⟨2, ![a, k]⟩ x hca) hb) (truncf .bf16 W hb)
          (constant (F := Ideal) ⟨2, ![a, n]⟩ .f32 0x00000000#32))
        (broadcastTo ⟨2, ![a, n]⟩ (shapeCast ⟨2, ![1, n]⟩ b hc3) hb3)
      = Cert.Dense.biased x W b := by
  funext i
  obtain ⟨r, q, rfl⟩ : ∃ (r : Fin a) (q : Fin n), i = ix2 r q := ⟨i 0, i 1, eq_ix2 i⟩
  rw [shapeCast_self, Cert.Dense.matmul_eq_prod d hlc hrc hln hrn hlb hrb x W hb]
  exact Cert.Dense.tile_biased _ b hc3 hb3 r q

end Spellings

end Cert.Sage

end
-- ==== Proof.Region0.lean ====
/-
  The first graph layer's launch, read as one array.

  The launch walks 25 blocks of 2000 rows.  At block t it loads rows 2000 t .. 2000 t + 1999 of the means and of the
  features, the two whole weight matrices and the bias row, and writes rows 2000 t .. 2000 t + 1999 of the result: the
  graph layer of those two row blocks.  Since an entry of the layer reads only its own row of the means and of the
  features, that block is the block of rows of the layer of the whole arrays; the 25 blocks tile the 50000 rows, so
  the result array ends as the layer of the whole arrays, whatever the arrays hold when the launch begins.
-/
import proofs.«162610_j27891517620521_1_alg».proof.Proof.Gen.KernelIdeal.Frame
import proofs.«162610_j27891517620521_1_alg».proof.Proof.SageLayer

set_option maxRecDepth 16384

noncomputable section

namespace Cert.KernelIdeal.Layer0

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- What the body stores is the graph layer of the five blocks it loads. -/
theorem pay_eq (x0 x1 : Vec Ideal S2000x64 .f32) (x2 x3 : Vec Ideal S64x256 .f32) (x4 : Vec Ideal S1x256 .f32) :
    k0_pay1 x0 x1 x2 x3 x4 = Cert.Sage.layer x0 x1 x2 x3 x4 :=
  Cert.Sage.tile_layer dot_S2000x64_S64x256_S2000x256_1_0_0_1_n_n rfl rfl rfl rfl rfl rfl x0 x1 x2 x3 x4
    bitsLt_bf16_f32 shapeCasts_S2000x64_S2000x64 shapeCasts_S1x256_S1x256 broadcasts_S1x256_S2000x256

/-- The block indices over the 25 points: the row block is the point for the means, the features and the result,
    and every other block index is zero. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- What point t writes back is block t of the layer of the arrays as the launch finds them. -/
theorem flushed_eq (c : Dev nD) (t : Fin cfg0.N) :
    (dat0 V c).flushed 5 t = ((cfg0.win 5).blk t).view.read (Elt Ideal)
      (Cert.Sage.layer (V c main_v22) (V c main_arg0) (V c main_arg2) (V c main_arg4) (V c main_v23)) := by
  show (cfg0.win 5).cut (grid0.coords t) ((dat0 V c).after 5 t) = _
  rw [after0_5]
  unfold out0_5
  rw [View.canon_unit_zero hz]
  simp only [View.ld_unit_zero (S := S2000x64) hz, View.ld_unit_zero (S := S64x256) hz,
    View.ld_unit_zero (S := S1x256) hz]
  rw [pay_eq]
  obtain ⟨e00, e01, e10, e11, e20, e21, e30, e31, e40, e41, e50, e51⟩ := idx_facts t
  funext j
  show Cert.Sage.layer (iblk0 V c 0 t) (iblk0 V c 1 t) (iblk0 V c 2 t) (iblk0 V c 3 t) (iblk0 V c 4 t) j
    = Cert.Sage.layer (V c main_v22) (V c main_arg0) (V c main_arg2) (V c main_arg4) (V c main_v23)
        (((cfg0.win 5).blk t).view.emb j)
  refine Cert.Sage.layer_at (N := 50000) (a := 2000) (k := 64) (n := 256)
    (V c main_v22) (V c main_arg0) (V c main_arg2) (V c main_arg4) (V c main_v23)
    (iblk0 V c 0 t) (iblk0 V c 1 t) (iblk0 V c 2 t) (iblk0 V c 3 t) (iblk0 V c 4 t)
    j (((cfg0.win 5).blk t).view.emb j) ?_ ?_ ?_ ?_ ?_ ?_
  · intro q
    show V c main_v22 (((cfg0.win 0).blk t).view.emb (ix2 (j 0) q))
      = V c main_v22 (ix2 ((((cfg0.win 5).blk t).view.emb j) 0) q)
    refine congrArg (V c main_v22) (funext fun a => Fin.ext ?_)
    match a with
    | ⟨0, _⟩ =>
      show win0_0.index t (0 : Fin 2) * 2000 + 1 * (j 0).val = win0_5.index t (0 : Fin 2) * 2000 + 1 * (j 0).val
      omega
    | ⟨1, _⟩ =>
      show win0_0.index t (1 : Fin 2) * 64 + 1 * q.val = q.val
      omega
  · intro q
    show V c main_arg0 (((cfg0.win 1).blk t).view.emb (ix2 (j 0) q))
      = V c main_arg0 (ix2 ((((cfg0.win 5).blk t).view.emb j) 0) q)
    refine congrArg (V c main_arg0) (funext fun a => Fin.ext ?_)
    match a with
    | ⟨0, _⟩ =>
      show win0_1.index t (0 : Fin 2) * 2000 + 1 * (j 0).val = win0_5.index t (0 : Fin 2) * 2000 + 1 * (j 0).val
      omega
    | ⟨1, _⟩ =>
      show win0_1.index t (1 : Fin 2) * 64 + 1 * q.val = q.val
      omega
  · intro y
    show V c main_arg2 (((cfg0.win 2).blk t).view.emb y) = V c main_arg2 y
    refine congrArg (V c main_arg2) (funext fun a => Fin.ext ?_)
    match a with
    | ⟨0, _⟩ => show win0_2.index t (0 : Fin 2) * 64 + 1 * (y 0).val = (y 0).val; omega
    | ⟨1, _⟩ => show win0_2.index t (1 : Fin 2) * 256 + 1 * (y 1).val = (y 1).val; omega
  · intro y
    show V c main_arg4 (((cfg0.win 3).blk t).view.emb y) = V c main_arg4 y
    refine congrArg (V c main_arg4) (funext fun a => Fin.ext ?_)
    match a with
    | ⟨0, _⟩ => show win0_3.index t (0 : Fin 2) * 64 + 1 * (y 0).val = (y 0).val; omega
    | ⟨1, _⟩ => show win0_3.index t (1 : Fin 2) * 256 + 1 * (y 1).val = (y 1).val; omega
  · intro y
    show V c main_v23 (((cfg0.win 4).blk t).view.emb y) = V c main_v23 y
    refine congrArg (V c main_v23) (funext fun a => Fin.ext ?_)
    match a with
    | ⟨0, _⟩ => show win0_4.index t (0 : Fin 2) * 1 + 1 * (y 0).val = (y 0).val; omega
    | ⟨1, _⟩ => show win0_4.index t (1 : Fin 2) * 256 + 1 * (y 1).val = (y 1).val; omega
  · apply Fin.ext
    show (j 1).val = win0_5.index t (1 : Fin 2) * 256 + 1 * (j 1).val
    omega

/-- An index of the result array is in point t's block iff each coordinate is in the block's range on its axis. -/
theorem mem_blk (t : Fin cfg0.N) (i : S50000x256.Idx) :
    i ∈ ((cfg0.win 5).blk t).view.set ↔ ∀ a : Fin 2, win0_5.index t a * S2000x256.size a ≤ (i a).val
      ∧ (i a).val < win0_5.index t a * S2000x256.size a + S2000x256.size a := by
  show i ∈ ((View.whole main_v24).slice (win0_5.rect t)).set ↔ _
  rw [View.set_slice_whole, Rect.mem_set_unit]
  exact Iff.rfl

/-- Row r of the result is written by point r / 2000. -/
theorem cover (i : S50000x256.Idx) :
    ∃ t : Fin cfg0.N, (cfg0.win 5).flush t = true ∧ i ∈ ((cfg0.win 5).blk t).view.set := by
  have hi0 : (i 0).val < 50000 := (i 0).isLt
  have hi1 : (i 1).val < 256 := (i 1).isLt
  have hlt : (i 0).val / 2000 < cfg0.N := lt_of_lt_of_eq (by omega : (i 0).val / 2000 < 25) N_0.symm
  refine ⟨⟨(i 0).val / 2000, hlt⟩, flush0_5 _, ?_⟩
  rw [mem_blk]
  obtain ⟨-, -, -, -, -, -, -, -, -, -, e50, e51⟩ := idx_facts ⟨(i 0).val / 2000, hlt⟩
  have e50' : win0_5.index ⟨(i 0).val / 2000, hlt⟩ (0 : Fin 2) = (i 0).val / 2000 := e50
  intro a
  match a with
  | ⟨0, _⟩ =>
    show win0_5.index ⟨(i 0).val / 2000, hlt⟩ (0 : Fin 2) * 2000 ≤ (i 0).val
      ∧ (i 0).val < win0_5.index ⟨(i 0).val / 2000, hlt⟩ (0 : Fin 2) * 2000 + 2000
    omega
  | ⟨1, _⟩ =>
    show win0_5.index ⟨(i 0).val / 2000, hlt⟩ (1 : Fin 2) * 256 ≤ (i 1).val
      ∧ (i 1).val < win0_5.index ⟨(i 0).val / 2000, hlt⟩ (1 : Fin 2) * 256 + 256
    omega

/-- The result array after the launch: the graph layer of the arrays as the launch finds them. -/
theorem final (c : Dev nD) : (dat0 V c).arrAt 5 cfg0.N
    = Cert.Sage.layer (V c main_v22) (V c main_arg0) (V c main_arg2) (V c main_arg4) (V c main_v23) :=
  (dat0 V c).arrAt_eq_of_cover 5 _ (fun t _ => flushed_eq V c t) (cover)

end Cert.KernelIdeal.Layer0

end
-- ==== Proof.Region1.lean ====
/-
  The second graph layer's launch, read as one array.

  The launch walks 25 blocks of 2000 rows.  At block t it loads rows 2000 t .. 2000 t + 1999 of the means and of the
  features, the two whole weight matrices and the bias row, and writes rows 2000 t .. 2000 t + 1999 of the result: the
  graph layer of those two row blocks.  Since an entry of the layer reads only its own row of the means and of the
  features, that block is the block of rows of the layer of the whole arrays; the 25 blocks tile the 50000 rows, so
  the result array ends as the layer of the whole arrays, whatever the arrays hold when the launch begins.
-/
import proofs.«162610_j27891517620521_1_alg».proof.Proof.Gen.KernelIdeal.Frame
import proofs.«162610_j27891517620521_1_alg».proof.Proof.SageLayer

set_option maxRecDepth 16384

noncomputable section

namespace Cert.KernelIdeal.Layer1

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- What the body stores is the graph layer of the five blocks it loads. -/
theorem pay_eq (x0 x1 : Vec Ideal S2000x256 .f32) (x2 x3 : Vec Ideal S256x128 .f32) (x4 : Vec Ideal S1x128 .f32) :
    k1_pay1 x0 x1 x2 x3 x4 = Cert.Sage.layer x0 x1 x2 x3 x4 :=
  Cert.Sage.tile_layer_casts dot_S2000x256_S256x128_S2000x128_1_0_0_1_n_n rfl rfl rfl rfl rfl rfl x0 x1 x2 x3 x4
    bitsLt_bf16_f32 shapeCasts_S2000x256_S2000x256 shapeCasts_S2000x256_S2000x256 shapeCasts_S1x128_S1x128 broadcasts_S1x128_S2000x128

/-- The block indices over the 25 points: the row block is the point for the means, the features and the result,
    and every other block index is zero. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- What point t writes back is block t of the layer of the arrays as the launch finds them. -/
theorem flushed_eq (c : Dev nD) (t : Fin cfg1.N) :
    (dat1 V c).flushed 5 t = ((cfg1.win 5).blk t).view.read (Elt Ideal)
      (Cert.Sage.layer (V c main_v43) (V c main_v24) (V c main_arg5) (V c main_arg7) (V c main_v44)) := by
  show (cfg1.win 5).cut (grid1.coords t) ((dat1 V c).after 5 t) = _
  rw [after1_5]
  unfold out1_5
  rw [View.canon_unit_zero hz]
  simp only [View.ld_unit_zero (S := S2000x256) hz, View.ld_unit_zero (S := S256x128) hz,
    View.ld_unit_zero (S := S1x128) hz]
  rw [pay_eq]
  obtain ⟨e00, e01, e10, e11, e20, e21, e30, e31, e40, e41, e50, e51⟩ := idx_facts t
  funext j
  show Cert.Sage.layer (iblk1 V c 0 t) (iblk1 V c 1 t) (iblk1 V c 2 t) (iblk1 V c 3 t) (iblk1 V c 4 t) j
    = Cert.Sage.layer (V c main_v43) (V c main_v24) (V c main_arg5) (V c main_arg7) (V c main_v44)
        (((cfg1.win 5).blk t).view.emb j)
  refine Cert.Sage.layer_at (N := 50000) (a := 2000) (k := 256) (n := 128)
    (V c main_v43) (V c main_v24) (V c main_arg5) (V c main_arg7) (V c main_v44)
    (iblk1 V c 0 t) (iblk1 V c 1 t) (iblk1 V c 2 t) (iblk1 V c 3 t) (iblk1 V c 4 t)
    j (((cfg1.win 5).blk t).view.emb j) ?_ ?_ ?_ ?_ ?_ ?_
  · intro q
    show V c main_v43 (((cfg1.win 0).blk t).view.emb (ix2 (j 0) q))
      = V c main_v43 (ix2 ((((cfg1.win 5).blk t).view.emb j) 0) q)
    refine congrArg (V c main_v43) (funext fun a => Fin.ext ?_)
    match a with
    | ⟨0, _⟩ =>
      show win1_0.index t (0 : Fin 2) * 2000 + 1 * (j 0).val = win1_5.index t (0 : Fin 2) * 2000 + 1 * (j 0).val
      omega
    | ⟨1, _⟩ =>
      show win1_0.index t (1 : Fin 2) * 256 + 1 * q.val = q.val
      omega
  · intro q
    show V c main_v24 (((cfg1.win 1).blk t).view.emb (ix2 (j 0) q))
      = V c main_v24 (ix2 ((((cfg1.win 5).blk t).view.emb j) 0) q)
    refine congrArg (V c main_v24) (funext fun a => Fin.ext ?_)
    match a with
    | ⟨0, _⟩ =>
      show win1_1.index t (0 : Fin 2) * 2000 + 1 * (j 0).val = win1_5.index t (0 : Fin 2) * 2000 + 1 * (j 0).val
      omega
    | ⟨1, _⟩ =>
      show win1_1.index t (1 : Fin 2) * 256 + 1 * q.val = q.val
      omega
  · intro y
    show V c main_arg5 (((cfg1.win 2).blk t).view.emb y) = V c main_arg5 y
    refine congrArg (V c main_arg5) (funext fun a => Fin.ext ?_)
    match a with
    | ⟨0, _⟩ => show win1_2.index t (0 : Fin 2) * 256 + 1 * (y 0).val = (y 0).val; omega
    | ⟨1, _⟩ => show win1_2.index t (1 : Fin 2) * 128 + 1 * (y 1).val = (y 1).val; omega
  · intro y
    show V c main_arg7 (((cfg1.win 3).blk t).view.emb y) = V c main_arg7 y
    refine congrArg (V c main_arg7) (funext fun a => Fin.ext ?_)
    match a with
    | ⟨0, _⟩ => show win1_3.index t (0 : Fin 2) * 256 + 1 * (y 0).val = (y 0).val; omega
    | ⟨1, _⟩ => show win1_3.index t (1 : Fin 2) * 128 + 1 * (y 1).val = (y 1).val; omega
  · intro y
    show V c main_v44 (((cfg1.win 4).blk t).view.emb y) = V c main_v44 y
    refine congrArg (V c main_v44) (funext fun a => Fin.ext ?_)
    match a with
    | ⟨0, _⟩ => show win1_4.index t (0 : Fin 2) * 1 + 1 * (y 0).val = (y 0).val; omega
    | ⟨1, _⟩ => show win1_4.index t (1 : Fin 2) * 128 + 1 * (y 1).val = (y 1).val; omega
  · apply Fin.ext
    show (j 1).val = win1_5.index t (1 : Fin 2) * 128 + 1 * (j 1).val
    omega

/-- An index of the result array is in point t's block iff each coordinate is in the block's range on its axis. -/
theorem mem_blk (t : Fin cfg1.N) (i : S50000x128.Idx) :
    i ∈ ((cfg1.win 5).blk t).view.set ↔ ∀ a : Fin 2, win1_5.index t a * S2000x128.size a ≤ (i a).val
      ∧ (i a).val < win1_5.index t a * S2000x128.size a + S2000x128.size a := by
  show i ∈ ((View.whole main_v45).slice (win1_5.rect t)).set ↔ _
  rw [View.set_slice_whole, Rect.mem_set_unit]
  exact Iff.rfl

/-- Row r of the result is written by point r / 2000. -/
theorem cover (i : S50000x128.Idx) :
    ∃ t : Fin cfg1.N, (cfg1.win 5).flush t = true ∧ i ∈ ((cfg1.win 5).blk t).view.set := by
  have hi0 : (i 0).val < 50000 := (i 0).isLt
  have hi1 : (i 1).val < 128 := (i 1).isLt
  have hlt : (i 0).val / 2000 < cfg1.N := lt_of_lt_of_eq (by omega : (i 0).val / 2000 < 25) N_1.symm
  refine ⟨⟨(i 0).val / 2000, hlt⟩, flush1_5 _, ?_⟩
  rw [mem_blk]
  obtain ⟨-, -, -, -, -, -, -, -, -, -, e50, e51⟩ := idx_facts ⟨(i 0).val / 2000, hlt⟩
  have e50' : win1_5.index ⟨(i 0).val / 2000, hlt⟩ (0 : Fin 2) = (i 0).val / 2000 := e50
  intro a
  match a with
  | ⟨0, _⟩ =>
    show win1_5.index ⟨(i 0).val / 2000, hlt⟩ (0 : Fin 2) * 2000 ≤ (i 0).val
      ∧ (i 0).val < win1_5.index ⟨(i 0).val / 2000, hlt⟩ (0 : Fin 2) * 2000 + 2000
    omega
  | ⟨1, _⟩ =>
    show win1_5.index ⟨(i 0).val / 2000, hlt⟩ (1 : Fin 2) * 128 ≤ (i 1).val
      ∧ (i 1).val < win1_5.index ⟨(i 0).val / 2000, hlt⟩ (1 : Fin 2) * 128 + 128
    omega

/-- The result array after the launch: the graph layer of the arrays as the launch finds them. -/
theorem final (c : Dev nD) : (dat1 V c).arrAt 5 cfg1.N
    = Cert.Sage.layer (V c main_v43) (V c main_v24) (V c main_arg5) (V c main_arg7) (V c main_v44) :=
  (dat1 V c).arrAt_eq_of_cover 5 _ (fun t _ => flushed_eq V c t) (cover)

end Cert.KernelIdeal.Layer1

end
-- ==== Proof.Region2.lean ====
/-
  The third graph layer's launch, read as one array.

  The launch walks 25 blocks of 2000 rows.  At block t it loads rows 2000 t .. 2000 t + 1999 of the means and of the
  features, the two whole weight matrices and the bias row, and writes rows 2000 t .. 2000 t + 1999 of the result: the
  graph layer of those two row blocks.  Since an entry of the layer reads only its own row of the means and of the
  features, that block is the block of rows of the layer of the whole arrays; the 25 blocks tile the 50000 rows, so
  the result array ends as the layer of the whole arrays, whatever the arrays hold when the launch begins.
-/
import proofs.«162610_j27891517620521_1_alg».proof.Proof.Gen.KernelIdeal.Frame
import proofs.«162610_j27891517620521_1_alg».proof.Proof.SageLayer

set_option maxRecDepth 16384

noncomputable section

namespace Cert.KernelIdeal.Layer2

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- What the body stores is the graph layer of the five blocks it loads. -/
theorem pay_eq (x0 x1 : Vec Ideal S2000x128 .f32) (x2 x3 : Vec Ideal S128x128 .f32) (x4 : Vec Ideal S1x128 .f32) :
    k2_pay1 x0 x1 x2 x3 x4 = Cert.Sage.layer x0 x1 x2 x3 x4 :=
  Cert.Sage.tile_layer_casts dot_S2000x128_S128x128_S2000x128_1_0_0_1_n_n rfl rfl rfl rfl rfl rfl x0 x1 x2 x3 x4
    bitsLt_bf16_f32 shapeCasts_S2000x128_S2000x128 shapeCasts_S2000x128_S2000x128 shapeCasts_S1x128_S1x128 broadcasts_S1x128_S2000x128

/-- The block indices over the 25 points: the row block is the point for the means, the features and the result,
    and every other block index is zero. -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- What point t writes back is block t of the layer of the arrays as the launch finds them. -/
theorem flushed_eq (c : Dev nD) (t : Fin cfg2.N) :
    (dat2 V c).flushed 5 t = ((cfg2.win 5).blk t).view.read (Elt Ideal)
      (Cert.Sage.layer (V c main_v64) (V c main_v45) (V c main_arg8) (V c main_arg10) (V c main_v65)) := by
  show (cfg2.win 5).cut (grid2.coords t) ((dat2 V c).after 5 t) = _
  rw [after2_5]
  unfold out2_5
  rw [View.canon_unit_zero hz]
  simp only [View.ld_unit_zero (S := S2000x128) hz, View.ld_unit_zero (S := S128x128) hz,
    View.ld_unit_zero (S := S1x128) hz]
  rw [pay_eq]
  obtain ⟨e00, e01, e10, e11, e20, e21, e30, e31, e40, e41, e50, e51⟩ := idx_facts t
  funext j
  show Cert.Sage.layer (iblk2 V c 0 t) (iblk2 V c 1 t) (iblk2 V c 2 t) (iblk2 V c 3 t) (iblk2 V c 4 t) j
    = Cert.Sage.layer (V c main_v64) (V c main_v45) (V c main_arg8) (V c main_arg10) (V c main_v65)
        (((cfg2.win 5).blk t).view.emb j)
  refine Cert.Sage.layer_at (N := 50000) (a := 2000) (k := 128) (n := 128)
    (V c main_v64) (V c main_v45) (V c main_arg8) (V c main_arg10) (V c main_v65)
    (iblk2 V c 0 t) (iblk2 V c 1 t) (iblk2 V c 2 t) (iblk2 V c 3 t) (iblk2 V c 4 t)
    j (((cfg2.win 5).blk t).view.emb j) ?_ ?_ ?_ ?_ ?_ ?_
  · intro q
    show V c main_v64 (((cfg2.win 0).blk t).view.emb (ix2 (j 0) q))
      = V c main_v64 (ix2 ((((cfg2.win 5).blk t).view.emb j) 0) q)
    refine congrArg (V c main_v64) (funext fun a => Fin.ext ?_)
    match a with
    | ⟨0, _⟩ =>
      show win2_0.index t (0 : Fin 2) * 2000 + 1 * (j 0).val = win2_5.index t (0 : Fin 2) * 2000 + 1 * (j 0).val
      omega
    | ⟨1, _⟩ =>
      show win2_0.index t (1 : Fin 2) * 128 + 1 * q.val = q.val
      omega
  · intro q
    show V c main_v45 (((cfg2.win 1).blk t).view.emb (ix2 (j 0) q))
      = V c main_v45 (ix2 ((((cfg2.win 5).blk t).view.emb j) 0) q)
    refine congrArg (V c main_v45) (funext fun a => Fin.ext ?_)
    match a with
    | ⟨0, _⟩ =>
      show win2_1.index t (0 : Fin 2) * 2000 + 1 * (j 0).val = win2_5.index t (0 : Fin 2) * 2000 + 1 * (j 0).val
      omega
    | ⟨1, _⟩ =>
      show win2_1.index t (1 : Fin 2) * 128 + 1 * q.val = q.val
      omega
  · intro y
    show V c main_arg8 (((cfg2.win 2).blk t).view.emb y) = V c main_arg8 y
    refine congrArg (V c main_arg8) (funext fun a => Fin.ext ?_)
    match a with
    | ⟨0, _⟩ => show win2_2.index t (0 : Fin 2) * 128 + 1 * (y 0).val = (y 0).val; omega
    | ⟨1, _⟩ => show win2_2.index t (1 : Fin 2) * 128 + 1 * (y 1).val = (y 1).val; omega
  · intro y
    show V c main_arg10 (((cfg2.win 3).blk t).view.emb y) = V c main_arg10 y
    refine congrArg (V c main_arg10) (funext fun a => Fin.ext ?_)
    match a with
    | ⟨0, _⟩ => show win2_3.index t (0 : Fin 2) * 128 + 1 * (y 0).val = (y 0).val; omega
    | ⟨1, _⟩ => show win2_3.index t (1 : Fin 2) * 128 + 1 * (y 1).val = (y 1).val; omega
  · intro y
    show V c main_v65 (((cfg2.win 4).blk t).view.emb y) = V c main_v65 y
    refine congrArg (V c main_v65) (funext fun a => Fin.ext ?_)
    match a with
    | ⟨0, _⟩ => show win2_4.index t (0 : Fin 2) * 1 + 1 * (y 0).val = (y 0).val; omega
    | ⟨1, _⟩ => show win2_4.index t (1 : Fin 2) * 128 + 1 * (y 1).val = (y 1).val; omega
  · apply Fin.ext
    show (j 1).val = win2_5.index t (1 : Fin 2) * 128 + 1 * (j 1).val
    omega

/-- An index of the result array is in point t's block iff each coordinate is in the block's range on its axis. -/
theorem mem_blk (t : Fin cfg2.N) (i : S50000x128.Idx) :
    i ∈ ((cfg2.win 5).blk t).view.set ↔ ∀ a : Fin 2, win2_5.index t a * S2000x128.size a ≤ (i a).val
      ∧ (i a).val < win2_5.index t a * S2000x128.size a + S2000x128.size a := by
  show i ∈ ((View.whole main_v66).slice (win2_5.rect t)).set ↔ _
  rw [View.set_slice_whole, Rect.mem_set_unit]
  exact Iff.rfl

/-- Row r of the result is written by point r / 2000. -/
theorem cover (i : S50000x128.Idx) :
    ∃ t : Fin cfg2.N, (cfg2.win 5).flush t = true ∧ i ∈ ((cfg2.win 5).blk t).view.set := by
  have hi0 : (i 0).val < 50000 := (i 0).isLt
  have hi1 : (i 1).val < 128 := (i 1).isLt
  have hlt : (i 0).val / 2000 < cfg2.N := lt_of_lt_of_eq (by omega : (i 0).val / 2000 < 25) N_2.symm
  refine ⟨⟨(i 0).val / 2000, hlt⟩, flush2_5 _, ?_⟩
  rw [mem_blk]
  obtain ⟨-, -, -, -, -, -, -, -, -, -, e50, e51⟩ := idx_facts ⟨(i 0).val / 2000, hlt⟩
  have e50' : win2_5.index ⟨(i 0).val / 2000, hlt⟩ (0 : Fin 2) = (i 0).val / 2000 := e50
  intro a
  match a with
  | ⟨0, _⟩ =>
    show win2_5.index ⟨(i 0).val / 2000, hlt⟩ (0 : Fin 2) * 2000 ≤ (i 0).val
      ∧ (i 0).val < win2_5.index ⟨(i 0).val / 2000, hlt⟩ (0 : Fin 2) * 2000 + 2000
    omega
  | ⟨1, _⟩ =>
    show win2_5.index ⟨(i 0).val / 2000, hlt⟩ (1 : Fin 2) * 128 ≤ (i 1).val
      ∧ (i 1).val < win2_5.index ⟨(i 0).val / 2000, hlt⟩ (1 : Fin 2) * 128 + 128
    omega

/-- The result array after the launch: the graph layer of the arrays as the launch finds them. -/
theorem final (c : Dev nD) : (dat2 V c).arrAt 5 cfg2.N
    = Cert.Sage.layer (V c main_v64) (V c main_v45) (V c main_arg8) (V c main_arg10) (V c main_v65) :=
  (dat2 V c).arrAt_eq_of_cover 5 _ (fun t _ => flushed_eq V c t) (cover)

end Cert.KernelIdeal.Layer2

end
-- ==== Proof.Region3.lean ====
/-
  The first dense layer's launch, read as one array.

  The launch walks 25 blocks of 2000 rows.  At block t it loads rows 2000 t .. 2000 t + 1999 of the features, the
  whole weight matrix and the bias row, and writes rows 2000 t .. 2000 t + 1999 of the result: the dense layer of that
  row block.  An entry of the dense layer reads only its own row of the features, so that block is the block of rows
  of the dense layer of the whole array; the 25 blocks tile the 50000 rows, so the result array ends as the dense
  layer of the whole array, whatever the arrays hold when the launch begins.
-/
import proofs.«162610_j27891517620521_1_alg».proof.Proof.Gen.KernelIdeal.Frame
import proofs.«162610_j27891517620521_1_alg».proof.Proof.SageLayer

set_option maxRecDepth 16384

noncomputable section

namespace Cert.KernelIdeal.Layer3

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- What the body stores is the dense layer of the three blocks it loads. -/
theorem pay_eq (x0 : Vec Ideal S2000x128 .f32) (x1 : Vec Ideal S128x128 .f32) (x2 : Vec Ideal S1x128 .f32) :
    k3_pay1 x0 x1 x2 = Cert.Dense.biased x0 x1 x2 :=
  Cert.Sage.tile_dense dot_S2000x128_S128x128_S2000x128_1_0_0_1_n_n rfl rfl rfl rfl rfl rfl x0 x1 x2
    bitsLt_bf16_f32 shapeCasts_S2000x128_S2000x128 shapeCasts_S1x128_S1x128 broadcasts_S1x128_S2000x128

/-- The block indices over the 25 points: the row block is the point for the features and the result, and every
    other block index is zero. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- What point t writes back is block t of the dense layer of the arrays as the launch finds them. -/
theorem flushed_eq (c : Dev nD) (t : Fin cfg3.N) :
    (dat3 V c).flushed 3 t = ((cfg3.win 3).blk t).view.read (Elt Ideal)
      (Cert.Dense.biased (V c main_v66) (V c main_arg11) (V c main_v67)) := by
  show (cfg3.win 3).cut (grid3.coords t) ((dat3 V c).after 3 t) = _
  rw [after3_3]
  unfold out3_3
  rw [View.canon_unit_zero hz]
  simp only [View.ld_unit_zero (S := S2000x128) hz, View.ld_unit_zero (S := S128x128) hz,
    View.ld_unit_zero (S := S1x128) hz]
  rw [pay_eq]
  obtain ⟨e00, e01, e10, e11, e20, e21, e30, e31⟩ := idx_facts t
  funext j
  show Cert.Dense.biased (iblk3 V c 0 t) (iblk3 V c 1 t) (iblk3 V c 2 t) j
    = Cert.Dense.biased (V c main_v66) (V c main_arg11) (V c main_v67)
        (((cfg3.win 3).blk t).view.emb j)
  refine Cert.Sage.biased_at (N := 50000) (a := 2000) (k := 128) (n := 128)
    (V c main_v66) (V c main_arg11) (V c main_v67)
    (iblk3 V c 0 t) (iblk3 V c 1 t) (iblk3 V c 2 t)
    j (((cfg3.win 3).blk t).view.emb j) ?_ ?_ ?_ ?_
  · intro q
    show V c main_v66 (((cfg3.win 0).blk t).view.emb (ix2 (j 0) q))
      = V c main_v66 (ix2 ((((cfg3.win 3).blk t).view.emb j) 0) q)
    refine congrArg (V c main_v66) (funext fun a => Fin.ext ?_)
    match a with
    | ⟨0, _⟩ =>
      show win3_0.index t (0 : Fin 2) * 2000 + 1 * (j 0).val = win3_3.index t (0 : Fin 2) * 2000 + 1 * (j 0).val
      omega
    | ⟨1, _⟩ =>
      show win3_0.index t (1 : Fin 2) * 128 + 1 * q.val = q.val
      omega
  · intro y
    show V c main_arg11 (((cfg3.win 1).blk t).view.emb y) = V c main_arg11 y
    refine congrArg (V c main_arg11) (funext fun a => Fin.ext ?_)
    match a with
    | ⟨0, _⟩ => show win3_1.index t (0 : Fin 2) * 128 + 1 * (y 0).val = (y 0).val; omega
    | ⟨1, _⟩ => show win3_1.index t (1 : Fin 2) * 128 + 1 * (y 1).val = (y 1).val; omega
  · intro y
    show V c main_v67 (((cfg3.win 2).blk t).view.emb y) = V c main_v67 y
    refine congrArg (V c main_v67) (funext fun a => Fin.ext ?_)
    match a with
    | ⟨0, _⟩ => show win3_2.index t (0 : Fin 2) * 1 + 1 * (y 0).val = (y 0).val; omega
    | ⟨1, _⟩ => show win3_2.index t (1 : Fin 2) * 128 + 1 * (y 1).val = (y 1).val; omega
  · apply Fin.ext
    show (j 1).val = win3_3.index t (1 : Fin 2) * 128 + 1 * (j 1).val
    omega

/-- An index of the result array is in point t's block iff each coordinate is in the block's range on its axis. -/
theorem mem_blk (t : Fin cfg3.N) (i : S50000x128.Idx) :
    i ∈ ((cfg3.win 3).blk t).view.set ↔ ∀ a : Fin 2, win3_3.index t a * S2000x128.size a ≤ (i a).val
      ∧ (i a).val < win3_3.index t a * S2000x128.size a + S2000x128.size a := by
  show i ∈ ((View.whole main_v68).slice (win3_3.rect t)).set ↔ _
  rw [View.set_slice_whole, Rect.mem_set_unit]
  exact Iff.rfl

/-- Row r of the result is written by point r / 2000. -/
theorem cover (i : S50000x128.Idx) :
    ∃ t : Fin cfg3.N, (cfg3.win 3).flush t = true ∧ i ∈ ((cfg3.win 3).blk t).view.set := by
  have hi0 : (i 0).val < 50000 := (i 0).isLt
  have hi1 : (i 1).val < 128 := (i 1).isLt
  have hlt : (i 0).val / 2000 < cfg3.N := lt_of_lt_of_eq (by omega : (i 0).val / 2000 < 25) N_3.symm
  refine ⟨⟨(i 0).val / 2000, hlt⟩, flush3_3 _, ?_⟩
  rw [mem_blk]
  obtain ⟨-, -, -, -, -, -, e30, e31⟩ := idx_facts ⟨(i 0).val / 2000, hlt⟩
  have e30' : win3_3.index ⟨(i 0).val / 2000, hlt⟩ (0 : Fin 2) = (i 0).val / 2000 := e30
  intro a
  match a with
  | ⟨0, _⟩ =>
    show win3_3.index ⟨(i 0).val / 2000, hlt⟩ (0 : Fin 2) * 2000 ≤ (i 0).val
      ∧ (i 0).val < win3_3.index ⟨(i 0).val / 2000, hlt⟩ (0 : Fin 2) * 2000 + 2000
    omega
  | ⟨1, _⟩ =>
    show win3_3.index ⟨(i 0).val / 2000, hlt⟩ (1 : Fin 2) * 128 ≤ (i 1).val
      ∧ (i 1).val < win3_3.index ⟨(i 0).val / 2000, hlt⟩ (1 : Fin 2) * 128 + 128
    omega

/-- The result array after the launch: the dense layer of the arrays as the launch finds them. -/
theorem final (c : Dev nD) : (dat3 V c).arrAt 3 cfg3.N
    = Cert.Dense.biased (V c main_v66) (V c main_arg11) (V c main_v67) :=
  (dat3 V c).arrAt_eq_of_cover 3 _ (fun t _ => flushed_eq V c t) (cover)

end Cert.KernelIdeal.Layer3

end
-- ==== Proof.Region4.lean ====
/-
  The second dense layer's launch, read as one array.

  The launch walks 25 blocks of 2000 rows.  At block t it loads rows 2000 t .. 2000 t + 1999 of the features, the
  whole weight matrix and the bias row, and writes rows 2000 t .. 2000 t + 1999 of the result: the dense layer of that
  row block.  An entry of the dense layer reads only its own row of the features, so that block is the block of rows
  of the dense layer of the whole array; the 25 blocks tile the 50000 rows, so the result array ends as the dense
  layer of the whole array, whatever the arrays hold when the launch begins.
-/
import proofs.«162610_j27891517620521_1_alg».proof.Proof.Gen.KernelIdeal.Frame
import proofs.«162610_j27891517620521_1_alg».proof.Proof.SageLayer

set_option maxRecDepth 16384

noncomputable section

namespace Cert.KernelIdeal.Layer4

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- What the body stores is the dense layer of the three blocks it loads. -/
theorem pay_eq (x0 : Vec Ideal S2000x128 .f32) (x1 : Vec Ideal S128x8 .f32) (x2 : Vec Ideal S1x8 .f32) :
    k4_pay1 x0 x1 x2 = Cert.Dense.biased x0 x1 x2 :=
  Cert.Sage.tile_dense dot_S2000x128_S128x8_S2000x8_1_0_0_1_n_n rfl rfl rfl rfl rfl rfl x0 x1 x2
    bitsLt_bf16_f32 shapeCasts_S2000x128_S2000x128 shapeCasts_S1x8_S1x8 broadcasts_S1x8_S2000x8

/-- The block indices over the 25 points: the row block is the point for the features and the result, and every
    other block index is zero. -/
theorem idx_facts : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

/-- What point t writes back is block t of the dense layer of the arrays as the launch finds them. -/
theorem flushed_eq (c : Dev nD) (t : Fin cfg4.N) :
    (dat4 V c).flushed 3 t = ((cfg4.win 3).blk t).view.read (Elt Ideal)
      (Cert.Dense.biased (V c main_v68) (V c main_arg13) (V c main_v69)) := by
  show (cfg4.win 3).cut (grid4.coords t) ((dat4 V c).after 3 t) = _
  rw [after4_3]
  unfold out4_3
  rw [View.canon_unit_zero hz]
  simp only [View.ld_unit_zero (S := S2000x128) hz, View.ld_unit_zero (S := S128x8) hz,
    View.ld_unit_zero (S := S1x8) hz]
  rw [pay_eq]
  obtain ⟨e00, e01, e10, e11, e20, e21, e30, e31⟩ := idx_facts t
  funext j
  show Cert.Dense.biased (iblk4 V c 0 t) (iblk4 V c 1 t) (iblk4 V c 2 t) j
    = Cert.Dense.biased (V c main_v68) (V c main_arg13) (V c main_v69)
        (((cfg4.win 3).blk t).view.emb j)
  refine Cert.Sage.biased_at (N := 50000) (a := 2000) (k := 128) (n := 8)
    (V c main_v68) (V c main_arg13) (V c main_v69)
    (iblk4 V c 0 t) (iblk4 V c 1 t) (iblk4 V c 2 t)
    j (((cfg4.win 3).blk t).view.emb j) ?_ ?_ ?_ ?_
  · intro q
    show V c main_v68 (((cfg4.win 0).blk t).view.emb (ix2 (j 0) q))
      = V c main_v68 (ix2 ((((cfg4.win 3).blk t).view.emb j) 0) q)
    refine congrArg (V c main_v68) (funext fun a => Fin.ext ?_)
    match a with
    | ⟨0, _⟩ =>
      show win4_0.index t (0 : Fin 2) * 2000 + 1 * (j 0).val = win4_3.index t (0 : Fin 2) * 2000 + 1 * (j 0).val
      omega
    | ⟨1, _⟩ =>
      show win4_0.index t (1 : Fin 2) * 128 + 1 * q.val = q.val
      omega
  · intro y
    show V c main_arg13 (((cfg4.win 1).blk t).view.emb y) = V c main_arg13 y
    refine congrArg (V c main_arg13) (funext fun a => Fin.ext ?_)
    match a with
    | ⟨0, _⟩ => show win4_1.index t (0 : Fin 2) * 128 + 1 * (y 0).val = (y 0).val; omega
    | ⟨1, _⟩ => show win4_1.index t (1 : Fin 2) * 8 + 1 * (y 1).val = (y 1).val; omega
  · intro y
    show V c main_v69 (((cfg4.win 2).blk t).view.emb y) = V c main_v69 y
    refine congrArg (V c main_v69) (funext fun a => Fin.ext ?_)
    match a with
    | ⟨0, _⟩ => show win4_2.index t (0 : Fin 2) * 1 + 1 * (y 0).val = (y 0).val; omega
    | ⟨1, _⟩ => show win4_2.index t (1 : Fin 2) * 8 + 1 * (y 1).val = (y 1).val; omega
  · apply Fin.ext
    show (j 1).val = win4_3.index t (1 : Fin 2) * 8 + 1 * (j 1).val
    omega

/-- An index of the result array is in point t's block iff each coordinate is in the block's range on its axis. -/
theorem mem_blk (t : Fin cfg4.N) (i : S50000x8.Idx) :
    i ∈ ((cfg4.win 3).blk t).view.set ↔ ∀ a : Fin 2, win4_3.index t a * S2000x8.size a ≤ (i a).val
      ∧ (i a).val < win4_3.index t a * S2000x8.size a + S2000x8.size a := by
  show i ∈ ((View.whole main_v70).slice (win4_3.rect t)).set ↔ _
  rw [View.set_slice_whole, Rect.mem_set_unit]
  exact Iff.rfl

/-- Row r of the result is written by point r / 2000. -/
theorem cover (i : S50000x8.Idx) :
    ∃ t : Fin cfg4.N, (cfg4.win 3).flush t = true ∧ i ∈ ((cfg4.win 3).blk t).view.set := by
  have hi0 : (i 0).val < 50000 := (i 0).isLt
  have hi1 : (i 1).val < 8 := (i 1).isLt
  have hlt : (i 0).val / 2000 < cfg4.N := lt_of_lt_of_eq (by omega : (i 0).val / 2000 < 25) N_4.symm
  refine ⟨⟨(i 0).val / 2000, hlt⟩, flush4_3 _, ?_⟩
  rw [mem_blk]
  obtain ⟨-, -, -, -, -, -, e30, e31⟩ := idx_facts ⟨(i 0).val / 2000, hlt⟩
  have e30' : win4_3.index ⟨(i 0).val / 2000, hlt⟩ (0 : Fin 2) = (i 0).val / 2000 := e30
  intro a
  match a with
  | ⟨0, _⟩ =>
    show win4_3.index ⟨(i 0).val / 2000, hlt⟩ (0 : Fin 2) * 2000 ≤ (i 0).val
      ∧ (i 0).val < win4_3.index ⟨(i 0).val / 2000, hlt⟩ (0 : Fin 2) * 2000 + 2000
    omega
  | ⟨1, _⟩ =>
    show win4_3.index ⟨(i 0).val / 2000, hlt⟩ (1 : Fin 2) * 8 ≤ (i 1).val
      ∧ (i 1).val < win4_3.index ⟨(i 0).val / 2000, hlt⟩ (1 : Fin 2) * 8 + 8
    omega

/-- The result array after the launch: the dense layer of the arrays as the launch finds them. -/
theorem final (c : Dev nD) : (dat4 V c).arrAt 3 cfg4.N
    = Cert.Dense.biased (V c main_v68) (V c main_arg13) (V c main_v69) :=
  (dat4 V c).arrAt_eq_of_cover 3 _ (fun t _ => flushed_eq V c t) (cover)

end Cert.KernelIdeal.Layer4

end
-- ==== Proof.Carry.lean ====
/-
  Buffers that the program only reads.

  The two rows of the edge list (sources and targets, computed once by the first stretch of host operations) and the
  weights and biases of the later layers are written by no later host operation and by no launch: whatever stage of
  the chain of buffer contents they are read at, they hold what the first stretch or the caller put there.
-/
import proofs.«162610_j27891517620521_1_alg».proof.Proof.Gen.KernelIdeal.Frame
import proofs.«162610_j27891517620521_1_alg».proof.Proof.Gen.ReferenceIdeal.Read

set_option maxRecDepth 16384

noncomputable section

namespace Cert.KernelIdeal.Carry

open Cert.KernelIdeal Cert.KernelIdeal.Gen Idealize.ShloMosaic Idealize.ShloMosaic.TcCoe Idealize.ShloMosaic.StableHlo
open Idealize.SL.Sem

variable (m : (ℓ : Loc nD τ sig) → Buf (Elt Ideal) ℓ) (ρ : Dev nD → PrngReg) (c : Dev nD)

/-! ## After host stretch 0 and after launch 0 -/

theorem w1_v1 : W1 m ρ c (Proc.devRef .tc main_v1) = (Cert.ReferenceIdeal.Read.val_main_v1 (F := Ideal) (m ((c : Thread nD τ).loc main_arg1))) := by
  show StableHlo.after hostOps0 (W0 m ρ c) (Proc.devRef .tc main_v1) = _
  after_results_simp <;> rfl
theorem w2_v1 : W2 m ρ c (Proc.devRef .tc main_v1) = (Cert.ReferenceIdeal.Read.val_main_v1 (F := Ideal) (m ((c : Thread nD τ).loc main_arg1))) :=
  (W2_of_ne m ρ c main_v1 (by decide)).trans (w1_v1 m ρ c)
theorem w1_v3 : W1 m ρ c (Proc.devRef .tc main_v3) = (Cert.ReferenceIdeal.Read.val_main_v3 (F := Ideal) (m ((c : Thread nD τ).loc main_arg1))) := by
  show StableHlo.after hostOps0 (W0 m ρ c) (Proc.devRef .tc main_v3) = _
  after_results_simp <;> rfl
theorem w2_v3 : W2 m ρ c (Proc.devRef .tc main_v3) = (Cert.ReferenceIdeal.Read.val_main_v3 (F := Ideal) (m ((c : Thread nD τ).loc main_arg1))) :=
  (W2_of_ne m ρ c main_v3 (by decide)).trans (w1_v3 m ρ c)
theorem w1_arg5 : W1 m ρ c (Proc.devRef .tc main_arg5) = (m ((c : Thread nD τ).loc main_arg5)) := by
  show StableHlo.after hostOps0 (W0 m ρ c) (Proc.devRef .tc main_arg5) = _
  after_results_simp <;> rfl
theorem w2_arg5 : W2 m ρ c (Proc.devRef .tc main_arg5) = (m ((c : Thread nD τ).loc main_arg5)) :=
  (W2_of_ne m ρ c main_arg5 (by decide)).trans (w1_arg5 m ρ c)
theorem w1_arg6 : W1 m ρ c (Proc.devRef .tc main_arg6) = (m ((c : Thread nD τ).loc main_arg6)) := by
  show StableHlo.after hostOps0 (W0 m ρ c) (Proc.devRef .tc main_arg6) = _
  after_results_simp <;> rfl
theorem w2_arg6 : W2 m ρ c (Proc.devRef .tc main_arg6) = (m ((c : Thread nD τ).loc main_arg6)) :=
  (W2_of_ne m ρ c main_arg6 (by decide)).trans (w1_arg6 m ρ c)
theorem w1_arg7 : W1 m ρ c (Proc.devRef .tc main_arg7) = (m ((c : Thread nD τ).loc main_arg7)) := by
  show StableHlo.after hostOps0 (W0 m ρ c) (Proc.devRef .tc main_arg7) = _
  after_results_simp <;> rfl
theorem w2_arg7 : W2 m ρ c (Proc.devRef .tc main_arg7) = (m ((c : Thread nD τ).loc main_arg7)) :=
  (W2_of_ne m ρ c main_arg7 (by decide)).trans (w1_arg7 m ρ c)
theorem w1_arg8 : W1 m ρ c (Proc.devRef .tc main_arg8) = (m ((c : Thread nD τ).loc main_arg8)) := by
  show StableHlo.after hostOps0 (W0 m ρ c) (Proc.devRef .tc main_arg8) = _
  after_results_simp <;> rfl
theorem w2_arg8 : W2 m ρ c (Proc.devRef .tc main_arg8) = (m ((c : Thread nD τ).loc main_arg8)) :=
  (W2_of_ne m ρ c main_arg8 (by decide)).trans (w1_arg8 m ρ c)
theorem w1_arg9 : W1 m ρ c (Proc.devRef .tc main_arg9) = (m ((c : Thread nD τ).loc main_arg9)) := by
  show StableHlo.after hostOps0 (W0 m ρ c) (Proc.devRef .tc main_arg9) = _
  after_results_simp <;> rfl
theorem w2_arg9 : W2 m ρ c (Proc.devRef .tc main_arg9) = (m ((c : Thread nD τ).loc main_arg9)) :=
  (W2_of_ne m ρ c main_arg9 (by decide)).trans (w1_arg9 m ρ c)
theorem w1_arg10 : W1 m ρ c (Proc.devRef .tc main_arg10) = (m ((c : Thread nD τ).loc main_arg10)) := by
  show StableHlo.after hostOps0 (W0 m ρ c) (Proc.devRef .tc main_arg10) = _
  after_results_simp <;> rfl
theorem w2_arg10 : W2 m ρ c (Proc.devRef .tc main_arg10) = (m ((c : Thread nD τ).loc main_arg10)) :=
  (W2_of_ne m ρ c main_arg10 (by decide)).trans (w1_arg10 m ρ c)
theorem w1_arg11 : W1 m ρ c (Proc.devRef .tc main_arg11) = (m ((c : Thread nD τ).loc main_arg11)) := by
  show StableHlo.after hostOps0 (W0 m ρ c) (Proc.devRef .tc main_arg11) = _
  after_results_simp <;> rfl
theorem w2_arg11 : W2 m ρ c (Proc.devRef .tc main_arg11) = (m ((c : Thread nD τ).loc main_arg11)) :=
  (W2_of_ne m ρ c main_arg11 (by decide)).trans (w1_arg11 m ρ c)
theorem w1_arg12 : W1 m ρ c (Proc.devRef .tc main_arg12) = (m ((c : Thread nD τ).loc main_arg12)) := by
  show StableHlo.after hostOps0 (W0 m ρ c) (Proc.devRef .tc main_arg12) = _
  after_results_simp <;> rfl
theorem w2_arg12 : W2 m ρ c (Proc.devRef .tc main_arg12) = (m ((c : Thread nD τ).loc main_arg12)) :=
  (W2_of_ne m ρ c main_arg12 (by decide)).trans (w1_arg12 m ρ c)
theorem w1_arg13 : W1 m ρ c (Proc.devRef .tc main_arg13) = (m ((c : Thread nD τ).loc main_arg13)) := by
  show StableHlo.after hostOps0 (W0 m ρ c) (Proc.devRef .tc main_arg13) = _
  after_results_simp <;> rfl
theorem w2_arg13 : W2 m ρ c (Proc.devRef .tc main_arg13) = (m ((c : Thread nD τ).loc main_arg13)) :=
  (W2_of_ne m ρ c main_arg13 (by decide)).trans (w1_arg13 m ρ c)
theorem w1_arg14 : W1 m ρ c (Proc.devRef .tc main_arg14) = (m ((c : Thread nD τ).loc main_arg14)) := by
  show StableHlo.after hostOps0 (W0 m ρ c) (Proc.devRef .tc main_arg14) = _
  after_results_simp <;> rfl
theorem w2_arg14 : W2 m ρ c (Proc.devRef .tc main_arg14) = (m ((c : Thread nD τ).loc main_arg14)) :=
  (W2_of_ne m ρ c main_arg14 (by decide)).trans (w1_arg14 m ρ c)

/-! ## After host stretch 1 and after launch 1 -/

theorem w3_v1 : W3 m ρ c (Proc.devRef .tc main_v1) = (Cert.ReferenceIdeal.Read.val_main_v1 (F := Ideal) (m ((c : Thread nD τ).loc main_arg1))) := by
  show StableHlo.after hostOps1 (W2 m ρ c) (Proc.devRef .tc main_v1) = _
  after_results_simp
  exact w2_v1 m ρ c
theorem w4_v1 : W4 m ρ c (Proc.devRef .tc main_v1) = (Cert.ReferenceIdeal.Read.val_main_v1 (F := Ideal) (m ((c : Thread nD τ).loc main_arg1))) :=
  (W4_of_ne m ρ c main_v1 (by decide)).trans (w3_v1 m ρ c)
theorem w3_v3 : W3 m ρ c (Proc.devRef .tc main_v3) = (Cert.ReferenceIdeal.Read.val_main_v3 (F := Ideal) (m ((c : Thread nD τ).loc main_arg1))) := by
  show StableHlo.after hostOps1 (W2 m ρ c) (Proc.devRef .tc main_v3) = _
  after_results_simp
  exact w2_v3 m ρ c
theorem w4_v3 : W4 m ρ c (Proc.devRef .tc main_v3) = (Cert.ReferenceIdeal.Read.val_main_v3 (F := Ideal) (m ((c : Thread nD τ).loc main_arg1))) :=
  (W4_of_ne m ρ c main_v3 (by decide)).trans (w3_v3 m ρ c)
theorem w3_arg8 : W3 m ρ c (Proc.devRef .tc main_arg8) = (m ((c : Thread nD τ).loc main_arg8)) := by
  show StableHlo.after hostOps1 (W2 m ρ c) (Proc.devRef .tc main_arg8) = _
  after_results_simp
  exact w2_arg8 m ρ c
theorem w4_arg8 : W4 m ρ c (Proc.devRef .tc main_arg8) = (m ((c : Thread nD τ).loc main_arg8)) :=
  (W4_of_ne m ρ c main_arg8 (by decide)).trans (w3_arg8 m ρ c)
theorem w3_arg9 : W3 m ρ c (Proc.devRef .tc main_arg9) = (m ((c : Thread nD τ).loc main_arg9)) := by
  show StableHlo.after hostOps1 (W2 m ρ c) (Proc.devRef .tc main_arg9) = _
  after_results_simp
  exact w2_arg9 m ρ c
theorem w4_arg9 : W4 m ρ c (Proc.devRef .tc main_arg9) = (m ((c : Thread nD τ).loc main_arg9)) :=
  (W4_of_ne m ρ c main_arg9 (by decide)).trans (w3_arg9 m ρ c)
theorem w3_arg10 : W3 m ρ c (Proc.devRef .tc main_arg10) = (m ((c : Thread nD τ).loc main_arg10)) := by
  show StableHlo.after hostOps1 (W2 m ρ c) (Proc.devRef .tc main_arg10) = _
  after_results_simp
  exact w2_arg10 m ρ c
theorem w4_arg10 : W4 m ρ c (Proc.devRef .tc main_arg10) = (m ((c : Thread nD τ).loc main_arg10)) :=
  (W4_of_ne m ρ c main_arg10 (by decide)).trans (w3_arg10 m ρ c)
theorem w3_arg11 : W3 m ρ c (Proc.devRef .tc main_arg11) = (m ((c : Thread nD τ).loc main_arg11)) := by
  show StableHlo.after hostOps1 (W2 m ρ c) (Proc.devRef .tc main_arg11) = _
  after_results_simp
  exact w2_arg11 m ρ c
theorem w4_arg11 : W4 m ρ c (Proc.devRef .tc main_arg11) = (m ((c : Thread nD τ).loc main_arg11)) :=
  (W4_of_ne m ρ c main_arg11 (by decide)).trans (w3_arg11 m ρ c)
theorem w3_arg12 : W3 m ρ c (Proc.devRef .tc main_arg12) = (m ((c : Thread nD τ).loc main_arg12)) := by
  show StableHlo.after hostOps1 (W2 m ρ c) (Proc.devRef .tc main_arg12) = _
  after_results_simp
  exact w2_arg12 m ρ c
theorem w4_arg12 : W4 m ρ c (Proc.devRef .tc main_arg12) = (m ((c : Thread nD τ).loc main_arg12)) :=
  (W4_of_ne m ρ c main_arg12 (by decide)).trans (w3_arg12 m ρ c)
theorem w3_arg13 : W3 m ρ c (Proc.devRef .tc main_arg13) = (m ((c : Thread nD τ).loc main_arg13)) := by
  show StableHlo.after hostOps1 (W2 m ρ c) (Proc.devRef .tc main_arg13) = _
  after_results_simp
  exact w2_arg13 m ρ c
theorem w4_arg13 : W4 m ρ c (Proc.devRef .tc main_arg13) = (m ((c : Thread nD τ).loc main_arg13)) :=
  (W4_of_ne m ρ c main_arg13 (by decide)).trans (w3_arg13 m ρ c)
theorem w3_arg14 : W3 m ρ c (Proc.devRef .tc main_arg14) = (m ((c : Thread nD τ).loc main_arg14)) := by
  show StableHlo.after hostOps1 (W2 m ρ c) (Proc.devRef .tc main_arg14) = _
  after_results_simp
  exact w2_arg14 m ρ c
theorem w4_arg14 : W4 m ρ c (Proc.devRef .tc main_arg14) = (m ((c : Thread nD τ).loc main_arg14)) :=
  (W4_of_ne m ρ c main_arg14 (by decide)).trans (w3_arg14 m ρ c)

/-! ## After host stretch 2 and after launch 2 -/

theorem w5_arg11 : W5 m ρ c (Proc.devRef .tc main_arg11) = (m ((c : Thread nD τ).loc main_arg11)) := by
  show StableHlo.after hostOps2 (W4 m ρ c) (Proc.devRef .tc main_arg11) = _
  after_results_simp
  exact w4_arg11 m ρ c
theorem w6_arg11 : W6 m ρ c (Proc.devRef .tc main_arg11) = (m ((c : Thread nD τ).loc main_arg11)) :=
  (W6_of_ne m ρ c main_arg11 (by decide)).trans (w5_arg11 m ρ c)
theorem w5_arg12 : W5 m ρ c (Proc.devRef .tc main_arg12) = (m ((c : Thread nD τ).loc main_arg12)) := by
  show StableHlo.after hostOps2 (W4 m ρ c) (Proc.devRef .tc main_arg12) = _
  after_results_simp
  exact w4_arg12 m ρ c
theorem w6_arg12 : W6 m ρ c (Proc.devRef .tc main_arg12) = (m ((c : Thread nD τ).loc main_arg12)) :=
  (W6_of_ne m ρ c main_arg12 (by decide)).trans (w5_arg12 m ρ c)
theorem w5_arg13 : W5 m ρ c (Proc.devRef .tc main_arg13) = (m ((c : Thread nD τ).loc main_arg13)) := by
  show StableHlo.after hostOps2 (W4 m ρ c) (Proc.devRef .tc main_arg13) = _
  after_results_simp
  exact w4_arg13 m ρ c
theorem w6_arg13 : W6 m ρ c (Proc.devRef .tc main_arg13) = (m ((c : Thread nD τ).loc main_arg13)) :=
  (W6_of_ne m ρ c main_arg13 (by decide)).trans (w5_arg13 m ρ c)
theorem w5_arg14 : W5 m ρ c (Proc.devRef .tc main_arg14) = (m ((c : Thread nD τ).loc main_arg14)) := by
  show StableHlo.after hostOps2 (W4 m ρ c) (Proc.devRef .tc main_arg14) = _
  after_results_simp
  exact w4_arg14 m ρ c
theorem w6_arg14 : W6 m ρ c (Proc.devRef .tc main_arg14) = (m ((c : Thread nD τ).loc main_arg14)) :=
  (W6_of_ne m ρ c main_arg14 (by decide)).trans (w5_arg14 m ρ c)

/-! ## After host stretch 3 and after launch 3 -/

theorem w7_arg13 : W7 m ρ c (Proc.devRef .tc main_arg13) = (m ((c : Thread nD τ).loc main_arg13)) := by
  show StableHlo.after hostOps3 (W6 m ρ c) (Proc.devRef .tc main_arg13) = _
  after_results_simp
  exact w6_arg13 m ρ c
theorem w8_arg13 : W8 m ρ c (Proc.devRef .tc main_arg13) = (m ((c : Thread nD τ).loc main_arg13)) :=
  (W8_of_ne m ρ c main_arg13 (by decide)).trans (w7_arg13 m ρ c)
theorem w7_arg14 : W7 m ρ c (Proc.devRef .tc main_arg14) = (m ((c : Thread nD τ).loc main_arg14)) := by
  show StableHlo.after hostOps3 (W6 m ρ c) (Proc.devRef .tc main_arg14) = _
  after_results_simp
  exact w6_arg14 m ρ c
theorem w8_arg14 : W8 m ρ c (Proc.devRef .tc main_arg14) = (m ((c : Thread nD τ).loc main_arg14)) :=
  (W8_of_ne m ρ c main_arg14 (by decide)).trans (w7_arg14 m ρ c)

end Cert.KernelIdeal.Carry

end
-- ==== Proof.RefStages.lean ====
/-
  The reference program, layer by layer.

  The reference computes, three times over, the mean of each node's in-neighbours' features (gather the source rows,
  add them into the target rows, count the edges into each target, divide by the larger of the count and one) and
  then the graph layer of the means and the features; then two dense layers.  Here the mean is named as one function
  of a feature array and the edge list, and each stage of the reference is identified with the graph layer or the
  dense layer (Cert.Sage.layer, Cert.Dense.biased) of the previous stage.
-/
import proofs.«162610_j27891517620521_1_alg».proof.Proof.Gen.ReferenceIdeal.Read
import proofs.«162610_j27891517620521_1_alg».proof.Proof.SageLayer

set_option maxRecDepth 16384

noncomputable section

namespace Cert.ReferenceIdeal.Stages

open Cert.ReferenceIdeal Cert.ReferenceIdeal.Read Idealize.ShloMosaic Idealize.ShloMosaic.TcCoe Idealize.SL.Sem

/-- The edge list, and the feature arrays of 64, 256 and 128 columns. -/
abbrev Edges := (⟨S2x800000, .i32⟩ : BufTy).Contents (Elt Ideal)
abbrev Feat64 := FVec Ideal S50000x64 .f32
abbrev Feat256 := FVec Ideal S50000x256 .f32
abbrev Feat128 := FVec Ideal S50000x128 .f32

/-- The mean over in-neighbours of a 64-column feature array: source rows gathered, added into their target rows,
    divided by the larger of the in-degree and one. -/
def mean64 (h : Feat64) (e : Edges) : Feat64 :=
  Host.divf (F := Ideal) (Host.scatterAdd (F := Ideal) scatter_S50000x64_S800000x1_S800000x64_1_0_0_1 (val_main_v11 (F := Ideal)) (val_main_v12 (F := Ideal) e)
      (Host.gather gather_S50000x64_S800000x1_S800000x64_1_0_n_n_0_1_164 h (val_main_v9 (F := Ideal) e)))
    (val_main_v21 (F := Ideal) e)

/-- The same for 256 columns. -/
def mean256 (h : Feat256) (e : Edges) : Feat256 :=
  Host.divf (F := Ideal) (Host.scatterAdd (F := Ideal) scatter_S50000x256_S800000x1_S800000x256_1_0_0_1 (val_main_v37 (F := Ideal)) (val_main_v38 (F := Ideal) e)
      (Host.gather gather_S50000x256_S800000x1_S800000x256_1_0_n_n_0_1_1256 h (val_main_v35 (F := Ideal) e)))
    (val_main_v47 (F := Ideal) e)

/-- The same for 128 columns. -/
def mean128 (h : Feat128) (e : Edges) : Feat128 :=
  Host.divf (F := Ideal) (Host.scatterAdd (F := Ideal) scatter_S50000x128_S800000x1_S800000x128_1_0_0_1 (val_main_v63 (F := Ideal)) (val_main_v64 (F := Ideal) e)
      (Host.gather gather_S50000x128_S800000x1_S800000x128_1_0_n_n_0_1_1128 h (val_main_v61 (F := Ideal) e)))
    (val_main_v73 (F := Ideal) e)

section
variable (x0 : Feat64) (x1 : Edges) (x2 : (⟨S64x256, .f32⟩ : BufTy).Contents (Elt Ideal))
  (x3 : (⟨S256, .f32⟩ : BufTy).Contents (Elt Ideal)) (x4 : (⟨S64x256, .f32⟩ : BufTy).Contents (Elt Ideal))
  (x5 : (⟨S256x128, .f32⟩ : BufTy).Contents (Elt Ideal)) (x6 : (⟨S128, .f32⟩ : BufTy).Contents (Elt Ideal))
  (x7 : (⟨S256x128, .f32⟩ : BufTy).Contents (Elt Ideal)) (x8 : (⟨S128x128, .f32⟩ : BufTy).Contents (Elt Ideal))
  (x9 : (⟨S128, .f32⟩ : BufTy).Contents (Elt Ideal)) (x10 x11 : (⟨S128x128, .f32⟩ : BufTy).Contents (Elt Ideal))
  (x12 : (⟨S128, .f32⟩ : BufTy).Contents (Elt Ideal)) (x13 : (⟨S128x8, .f32⟩ : BufTy).Contents (Elt Ideal))
  (x14 : (⟨S8, .f32⟩ : BufTy).Contents (Elt Ideal))

/-- The first means are the mean of the input features. -/
theorem means1 : val_main_v22 (F := Ideal) x0 x1 = mean64 x0 x1 := rfl

/-- The first hidden features: the graph layer of the input features and their means. -/
theorem hidden1 : val_main_v29 (F := Ideal) x0 x1 x2 x3 x4
    = Cert.Sage.layer (mean64 x0 x1) x0 x2 x4 (val_main_v24 (F := Ideal) x3) := by
  unfold val_main_v29 val_main_v28 val_main_v27 val_main_v26 val_main_v25 val_main_v23 val_main_call0_v0 val_main_call0_cst
  rw [means1]
  exact Cert.Sage.host_layer dot_S50000x64_S64x256_S50000x256_1_0_0_1_n_n rfl rfl rfl rfl rfl rfl _ _ _ _ _ _ _

/-- The second means are the mean of the first hidden features. -/
theorem means2 : val_main_v48 (F := Ideal) x0 x1 x2 x3 x4 = mean256 (val_main_v29 (F := Ideal) x0 x1 x2 x3 x4) x1 := rfl

/-- The second hidden features. -/
theorem hidden2 : val_main_v55 (F := Ideal) x0 x1 x2 x3 x4 x5 x6 x7
    = Cert.Sage.layer (mean256 (val_main_v29 (F := Ideal) x0 x1 x2 x3 x4) x1) (val_main_v29 (F := Ideal) x0 x1 x2 x3 x4) x5 x7
        (val_main_v50 (F := Ideal) x6) := by
  unfold val_main_v55 val_main_v54 val_main_v53 val_main_v52 val_main_v51 val_main_v49 val_main_call1_v0 val_main_call1_cst
  rw [means2]
  exact Cert.Sage.host_layer dot_S50000x256_S256x128_S50000x128_1_0_0_1_n_n rfl rfl rfl rfl rfl rfl _ _ _ _ _ _ _

/-- The third means are the mean of the second hidden features. -/
theorem means3 : val_main_v74 (F := Ideal) x0 x1 x2 x3 x4 x5 x6 x7 = mean128 (val_main_v55 (F := Ideal) x0 x1 x2 x3 x4 x5 x6 x7) x1 := rfl

/-- The third hidden features. -/
theorem hidden3 : val_main_v81 (F := Ideal) x0 x1 x2 x3 x4 x5 x6 x7 x8 x9 x10
    = Cert.Sage.layer (mean128 (val_main_v55 (F := Ideal) x0 x1 x2 x3 x4 x5 x6 x7) x1) (val_main_v55 (F := Ideal) x0 x1 x2 x3 x4 x5 x6 x7) x8 x10
        (val_main_v76 (F := Ideal) x9) := by
  unfold val_main_v81 val_main_v80 val_main_v79 val_main_v78 val_main_v77 val_main_v75 val_main_call2_v0 val_main_call2_cst
  rw [means3]
  exact Cert.Sage.host_layer dot_S50000x128_S128x128_S50000x128_1_0_0_1_n_n rfl rfl rfl rfl rfl rfl _ _ _ _ _ _ _

/-- The first dense layer of the head. -/
theorem head1 : val_main_v85 (F := Ideal) x0 x1 x2 x3 x4 x5 x6 x7 x8 x9 x10 x11 x12
    = Cert.Dense.biased (val_main_v81 (F := Ideal) x0 x1 x2 x3 x4 x5 x6 x7 x8 x9 x10) x11 (val_main_v83 (F := Ideal) x12) := by
  unfold val_main_v85 val_main_v84 val_main_v82
  exact (Cert.Dense.biased_eq_host dot_S50000x128_S128x128_S50000x128_1_0_0_1_n_n rfl rfl rfl rfl rfl rfl _ _ _ _).symm

/-- The result: the second dense layer of the head. -/
theorem head2 : val_main_v89 (F := Ideal) x0 x1 x2 x3 x4 x5 x6 x7 x8 x9 x10 x11 x12 x13 x14
    = Cert.Dense.biased (val_main_v85 (F := Ideal) x0 x1 x2 x3 x4 x5 x6 x7 x8 x9 x10 x11 x12) x13 (val_main_v87 (F := Ideal) x14) := by
  unfold val_main_v89 val_main_v88 val_main_v86
  exact (Cert.Dense.biased_eq_host dot_S50000x128_S128x8_S50000x8_1_0_0_1_n_n rfl rfl rfl rfl rfl rfl _ _ _ _).symm

end

end Cert.ReferenceIdeal.Stages

end
-- ==== Proof.KernelValue.lean ====
/-
  The program's result as a function of its arguments.

  Going through the chain of buffer contents from the launch memory: each launch's input arrays are read through the
  stretch of host operations before it, each launch's result array is the graph layer or the dense layer of those
  inputs (the five launch modules), and so every intermediate feature array, and at the end the result, is the same
  function of the fifteen arguments that the reference computes stage by stage: the means of the in-neighbours'
  features are the same gather, scatter-add and divide on both sides, a bias vector laid out as a row is the same
  array whether written as a reshape or as a broadcast, and the layers are the shared functions of the layer module.
-/
import proofs.«162610_j27891517620521_1_alg».proof.Proof.Gen.KernelIdeal.Frame
import proofs.«162610_j27891517620521_1_alg».proof.Proof.Region0
import proofs.«162610_j27891517620521_1_alg».proof.Proof.Region1
import proofs.«162610_j27891517620521_1_alg».proof.Proof.Region2
import proofs.«162610_j27891517620521_1_alg».proof.Proof.Region3
import proofs.«162610_j27891517620521_1_alg».proof.Proof.Region4
import proofs.«162610_j27891517620521_1_alg».proof.Proof.Carry
import proofs.«162610_j27891517620521_1_alg».proof.Proof.RefStages

set_option maxRecDepth 16384

noncomputable section

namespace Cert.KernelIdeal.Chain

open Cert.KernelIdeal Cert.KernelIdeal.Gen Idealize.ShloMosaic Idealize.ShloMosaic.TcCoe Idealize.ShloMosaic.StableHlo
open Idealize.SL.Sem

variable (m : (ℓ : Loc nD τ sig) → Buf (Elt Ideal) ℓ) (ρ : Dev nD → PrngReg) (c : Dev nD)

/-! ## The first graph layer -/

theorem r1_v22 : V1 m ρ c main_v22 = Cert.ReferenceIdeal.Stages.mean64 (m ((c : Thread nD τ).loc main_arg0)) (m ((c : Thread nD τ).loc main_arg1)) := by
  show StableHlo.after hostOps0 (W0 m ρ c) (Proc.devRef .tc main_v22) = _
  after_results_simp
  rfl
theorem r1_arg0 : V1 m ρ c main_arg0 = (m ((c : Thread nD τ).loc main_arg0)) := by
  show StableHlo.after hostOps0 (W0 m ρ c) (Proc.devRef .tc main_arg0) = _
  after_results_simp <;> rfl
theorem r1_arg2 : V1 m ρ c main_arg2 = (m ((c : Thread nD τ).loc main_arg2)) := by
  show StableHlo.after hostOps0 (W0 m ρ c) (Proc.devRef .tc main_arg2) = _
  after_results_simp <;> rfl
theorem r1_arg4 : V1 m ρ c main_arg4 = (m ((c : Thread nD τ).loc main_arg4)) := by
  show StableHlo.after hostOps0 (W0 m ρ c) (Proc.devRef .tc main_arg4) = _
  after_results_simp <;> rfl
theorem r1_v23 : V1 m ρ c main_v23 = Cert.ReferenceIdeal.Read.val_main_v24 (F := Ideal) (m ((c : Thread nD τ).loc main_arg3)) := by
  show StableHlo.after hostOps0 (W0 m ρ c) (Proc.devRef .tc main_v23) = _
  after_results_simp
  exact Cert.Dense.row_cast_eq_bcast (n := 256) _ shapeCasts_S256_S1x256 Cert.ReferenceIdeal.Gen.bcast_S256_S1x256_1

/-- The first hidden features are the reference's. -/
theorem hidden1 : W2 m ρ c (Proc.devRef .tc main_v24) = Cert.ReferenceIdeal.Read.val_main_v29 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (W2_arr m ρ c 5).trans ((Cert.KernelIdeal.Layer0.final (V1 m ρ) c).trans ?_)
  rw [Cert.ReferenceIdeal.Stages.hidden1, r1_v22, r1_arg0, r1_arg2, r1_arg4, r1_v23]

/-! ## The second graph layer -/

theorem r3_v24 : V3 m ρ c main_v24 = Cert.ReferenceIdeal.Read.val_main_v29 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  show StableHlo.after hostOps1 (W2 m ρ c) (Proc.devRef .tc main_v24) = _
  after_results_simp
  exact hidden1 m ρ c
theorem r3_v43 : V3 m ρ c main_v43 = Cert.ReferenceIdeal.Stages.mean256 (Cert.ReferenceIdeal.Read.val_main_v29 (F := Ideal) (m ((c : Thread nD τ).loc main_arg0)) (m ((c : Thread nD τ).loc main_arg1)) (m ((c : Thread nD τ).loc main_arg2)) (m ((c : Thread nD τ).loc main_arg3)) (m ((c : Thread nD τ).loc main_arg4))) (m ((c : Thread nD τ).loc main_arg1)) := by
  show StableHlo.after hostOps1 (W2 m ρ c) (Proc.devRef .tc main_v43) = _
  after_results_simp
  rw [hidden1 m ρ c, Cert.KernelIdeal.Carry.w2_v1 m ρ c, Cert.KernelIdeal.Carry.w2_v3 m ρ c]
  rfl
theorem r3_arg5 : V3 m ρ c main_arg5 = (m ((c : Thread nD τ).loc main_arg5)) := by
  show StableHlo.after hostOps1 (W2 m ρ c) (Proc.devRef .tc main_arg5) = _
  after_results_simp
  exact Cert.KernelIdeal.Carry.w2_arg5 m ρ c
theorem r3_arg7 : V3 m ρ c main_arg7 = (m ((c : Thread nD τ).loc main_arg7)) := by
  show StableHlo.after hostOps1 (W2 m ρ c) (Proc.devRef .tc main_arg7) = _
  after_results_simp
  exact Cert.KernelIdeal.Carry.w2_arg7 m ρ c
theorem r3_v44 : V3 m ρ c main_v44 = Cert.ReferenceIdeal.Read.val_main_v50 (F := Ideal) (m ((c : Thread nD τ).loc main_arg6)) := by
  show StableHlo.after hostOps1 (W2 m ρ c) (Proc.devRef .tc main_v44) = _
  after_results_simp
  rw [Cert.KernelIdeal.Carry.w2_arg6 m ρ c]
  exact Cert.Dense.row_cast_eq_bcast (n := 128) _ shapeCasts_S128_S1x128 Cert.ReferenceIdeal.Gen.bcast_S128_S1x128_1

/-- The second hidden features are the reference's. -/
theorem hidden2 : W4 m ρ c (Proc.devRef .tc main_v45) = Cert.ReferenceIdeal.Read.val_main_v55 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W4_arr m ρ c 5).trans ((Cert.KernelIdeal.Layer1.final (V3 m ρ) c).trans ?_)
  rw [Cert.ReferenceIdeal.Stages.hidden2, r3_v43, r3_v24, r3_arg5, r3_arg7, r3_v44]

/-! ## The third graph layer -/

theorem r5_v45 : V5 m ρ c main_v45 = Cert.ReferenceIdeal.Read.val_main_v55 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  show StableHlo.after hostOps2 (W4 m ρ c) (Proc.devRef .tc main_v45) = _
  after_results_simp
  exact hidden2 m ρ c
theorem r5_v64 : V5 m ρ c main_v64 = Cert.ReferenceIdeal.Stages.mean128 (Cert.ReferenceIdeal.Read.val_main_v55 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) (m ((c : Thread nD τ).loc main_arg1)) := by
  show StableHlo.after hostOps2 (W4 m ρ c) (Proc.devRef .tc main_v64) = _
  after_results_simp
  rw [hidden2 m ρ c, Cert.KernelIdeal.Carry.w4_v1 m ρ c, Cert.KernelIdeal.Carry.w4_v3 m ρ c]
  rfl
theorem r5_arg8 : V5 m ρ c main_arg8 = (m ((c : Thread nD τ).loc main_arg8)) := by
  show StableHlo.after hostOps2 (W4 m ρ c) (Proc.devRef .tc main_arg8) = _
  after_results_simp
  exact Cert.KernelIdeal.Carry.w4_arg8 m ρ c
theorem r5_arg10 : V5 m ρ c main_arg10 = (m ((c : Thread nD τ).loc main_arg10)) := by
  show StableHlo.after hostOps2 (W4 m ρ c) (Proc.devRef .tc main_arg10) = _
  after_results_simp
  exact Cert.KernelIdeal.Carry.w4_arg10 m ρ c
theorem r5_v65 : V5 m ρ c main_v65 = Cert.ReferenceIdeal.Read.val_main_v76 (F := Ideal) (m ((c : Thread nD τ).loc main_arg9)) := by
  show StableHlo.after hostOps2 (W4 m ρ c) (Proc.devRef .tc main_v65) = _
  after_results_simp
  rw [Cert.KernelIdeal.Carry.w4_arg9 m ρ c]
  exact Cert.Dense.row_cast_eq_bcast (n := 128) _ shapeCasts_S128_S1x128 Cert.ReferenceIdeal.Gen.bcast_S128_S1x128_1

/-- The third hidden features are the reference's. -/
theorem hidden3 : W6 m ρ c (Proc.devRef .tc main_v66) = Cert.ReferenceIdeal.Read.val_main_v81 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (W6_arr m ρ c 5).trans ((Cert.KernelIdeal.Layer2.final (V5 m ρ) c).trans ?_)
  rw [Cert.ReferenceIdeal.Stages.hidden3, r5_v64, r5_v45, r5_arg8, r5_arg10, r5_v65]

/-! ## The head's first dense layer -/

theorem r7_v66 : V7 m ρ c main_v66 = Cert.ReferenceIdeal.Read.val_main_v81 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  show StableHlo.after hostOps3 (W6 m ρ c) (Proc.devRef .tc main_v66) = _
  after_results_simp
  exact hidden3 m ρ c
theorem r7_arg11 : V7 m ρ c main_arg11 = (m ((c : Thread nD τ).loc main_arg11)) := by
  show StableHlo.after hostOps3 (W6 m ρ c) (Proc.devRef .tc main_arg11) = _
  after_results_simp
  exact Cert.KernelIdeal.Carry.w6_arg11 m ρ c
theorem r7_v67 : V7 m ρ c main_v67 = Cert.ReferenceIdeal.Read.val_main_v83 (F := Ideal) (m ((c : Thread nD τ).loc main_arg12)) := by
  show StableHlo.after hostOps3 (W6 m ρ c) (Proc.devRef .tc main_v67) = _
  after_results_simp
  rw [Cert.KernelIdeal.Carry.w6_arg12 m ρ c]
  exact Cert.Dense.row_cast_eq_bcast (n := 128) _ shapeCasts_S128_S1x128 Cert.ReferenceIdeal.Gen.bcast_S128_S1x128_1

/-- The head's first layer is the reference's. -/
theorem head1 : W8 m ρ c (Proc.devRef .tc main_v68) = Cert.ReferenceIdeal.Read.val_main_v85 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  refine (W8_arr m ρ c 3).trans ((Cert.KernelIdeal.Layer3.final (V7 m ρ) c).trans ?_)
  rw [Cert.ReferenceIdeal.Stages.head1, r7_v66, r7_arg11, r7_v67]

/-! ## The head's second dense layer: the result -/

theorem r9_v68 : V9 m ρ c main_v68 = Cert.ReferenceIdeal.Read.val_main_v85 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  show StableHlo.after hostOps4 (W8 m ρ c) (Proc.devRef .tc main_v68) = _
  after_results_simp
  exact head1 m ρ c
theorem r9_arg13 : V9 m ρ c main_arg13 = (m ((c : Thread nD τ).loc main_arg13)) := by
  show StableHlo.after hostOps4 (W8 m ρ c) (Proc.devRef .tc main_arg13) = _
  after_results_simp
  exact Cert.KernelIdeal.Carry.w8_arg13 m ρ c
theorem r9_v69 : V9 m ρ c main_v69 = Cert.ReferenceIdeal.Read.val_main_v87 (F := Ideal) (m ((c : Thread nD τ).loc main_arg14)) := by
  show StableHlo.after hostOps4 (W8 m ρ c) (Proc.devRef .tc main_v69) = _
  after_results_simp
  rw [Cert.KernelIdeal.Carry.w8_arg14 m ρ c]
  exact Cert.Dense.row_cast_eq_bcast (n := 8) _ shapeCasts_S8_S1x8 Cert.ReferenceIdeal.Gen.bcast_S8_S1x8_1

/-- The program's result is the reference's function of the arguments. -/
theorem result : W10 m ρ c (Proc.devRef .tc main_v70) = Cert.ReferenceIdeal.Read.val_main_v89 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) := by
  refine (W10_arr m ρ c 3).trans ((Cert.KernelIdeal.Layer4.final (V9 m ρ) c).trans ?_)
  rw [Cert.ReferenceIdeal.Stages.head2, r9_v68, r9_arg13, r9_v69]

end Cert.KernelIdeal.Chain

end
-- ==== Proof.lean ====
/-
  A three-layer graph network with mean aggregation and a two-layer dense head, computed by five launches of the
  matrix unit with plain host operations between them, equals the same network written with whole-array products.

  Both programs compute, three times, the mean of every node's in-neighbours' features by the same gather, scatter-add
  and divide, and then the layer  max (means Wl + features Wr + bias, 0);  then two dense layers  h W + bias.  The
  launches compute each layer 2000 rows at a time, with operands rounded to bfloat16 (which does nothing to an
  extended real) and with the three summands added in the order  (means Wl + features Wr) + bias,  where the
  whole-array program adds  (means Wl + bias) + features Wr.  Addition of extended reals is commutative and
  associative for all summands, infinite ones included, so no finiteness of the inputs is used.

  The modules: LibMatmulPlain, LibDotsNT, LibKeepdims, LibDenseLayer, LibDenseBranch (products and biased products read at
  an entry, both spellings), SageLayer (the graph layer: both spellings are one function; an entry reads only its own
  row), Region0 .. Region4 (each launch leaves the layer of the whole arrays), WholeRun (the run with its result named),
  Carry (buffers that are only read), RefStages (the reference, layer by layer), KernelValue (the chain from the
  arguments to the result).  Here: the three frames, the empty list of idealization rewrites, and the equality of
  results.
-/
import proofs.«162610_j27891517620521_1_alg».proof.Defs
import proofs.«162610_j27891517620521_1_alg».proof.Proof.Gen.Kernel
import proofs.«162610_j27891517620521_1_alg».proof.Proof.Gen.Kernel.Skeleton
import proofs.«162610_j27891517620521_1_alg».proof.Proof.Gen.Kernel.Launch
import proofs.«162610_j27891517620521_1_alg».proof.Proof.Gen.Kernel.Points
import proofs.«162610_j27891517620521_1_alg».proof.Proof.Gen.Kernel.Frame
import proofs.«162610_j27891517620521_1_alg».proof.Proof.Gen.KernelIdeal
import proofs.«162610_j27891517620521_1_alg».proof.Proof.Gen.KernelIdeal.Skeleton
import proofs.«162610_j27891517620521_1_alg».proof.Proof.Gen.KernelIdeal.Launch
import proofs.«162610_j27891517620521_1_alg».proof.Proof.Gen.KernelIdeal.Points
import proofs.«162610_j27891517620521_1_alg».proof.Proof.Gen.KernelIdeal.Frame
import proofs.«162610_j27891517620521_1_alg».proof.Proof.Gen.ReferenceIdeal
import proofs.«162610_j27891517620521_1_alg».proof.Proof.Gen.Pre_finite_inputs
import proofs.«162610_j27891517620521_1_alg».proof.Proof.Gen.ReferenceIdeal.Run
import proofs.«162610_j27891517620521_1_alg».proof.Proof.Gen.ReferenceIdeal.Read
import proofs.«162610_j27891517620521_1_alg».proof.Proof.WholeRun
import proofs.«162610_j27891517620521_1_alg».proof.Proof.KernelValue
import Idealize.ShloMosaic.Adequacy
import Idealize.ShloMosaic.Init

set_option maxRecDepth 16384

noncomputable section

namespace Cert.Proof

open Idealize.ShloMosaic Idealize.ShloMosaic.TcCoe Idealize.SL.Sem

/-- The word-level program runs and leaves its arguments as launched. -/
theorem frame_k : Cert.frame_Kernel := fun m ρ _ => Cert.Kernel.Gen.frame m ρ

/-- So does the program read on the extended reals. -/
theorem frame_ki : Cert.frame_KernelIdeal := fun m ρ _ => Cert.KernelIdeal.Gen.frame m ρ

/-- The reference runs and leaves its arguments as launched: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- No operation was rewritten on the way to the extended reals. -/
theorem preserves : Cert.preserves_Kernel_KernelIdeal := trivial

/-- From memories that agree on the fifteen arguments both programs end with the same result: each ends at the
    reference's function of its own arguments, and the arguments agree. -/
theorem algebraic : Cert.algebraic_KernelIdeal_ReferenceIdeal := by
  intro m ρ m' ρ' _ hagree
  refine ⟨fun c => Cert.KernelIdeal.Gen.W10 m ρ c (Proc.devRef .tc Cert.KernelIdeal.main_v70),
    Cert.KernelIdeal.Whole.run_out (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11, h12, h13, h14⟩ := hagree c
  show Cert.ReferenceIdeal.Value.res_main_v89 m' c
    = Cert.KernelIdeal.Gen.W10 m ρ c (Proc.devRef .tc Cert.KernelIdeal.main_v70)
  rw [Cert.ReferenceIdeal.Read.val_main_v89_eq, Cert.KernelIdeal.Chain.result m ρ c,
    h0, h1, h2, h3, h4, h5, h6, h7, h8, h9, h10, h11, h12, h13, h14]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
